-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S1650000x64 : Shape := ⟨2, ![1650000, 64]⟩

abbrev nBuf : Space → Nat
  | .hbm => 113
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S1650000, .i32⟩
  | .hbm, ⟨26, _⟩ => ⟨S1650000, .i1⟩
  | .hbm, ⟨27, _⟩ => ⟨S_, .i32⟩
  | .hbm, ⟨28, _⟩ => ⟨S1650000, .i32⟩
  | .hbm, ⟨29, _⟩ => ⟨S1650000, .i32⟩
  | .hbm, ⟨30, _⟩ => ⟨S1650000, .i32⟩
  | .hbm, ⟨31, _⟩ => ⟨S1650000x1, .i32⟩
  | .hbm, ⟨32, _⟩ => ⟨S1650000, .f32⟩
  | .hbm, ⟨33, _⟩ => ⟨S_, .i32⟩
  | .hbm, ⟨34, _⟩ => ⟨S1650000, .i32⟩
  | .hbm, ⟨35, _⟩ => ⟨S1650000, .i1⟩
  | .hbm, ⟨36, _⟩ => ⟨S_, .i32⟩
  | .hbm, ⟨37, _⟩ => ⟨S1650000, .i32⟩
  | .hbm, ⟨38, _⟩ => ⟨S1650000, .i32⟩
  | .hbm, ⟨39, _⟩ => ⟨S1650000, .i32⟩
  | .hbm, ⟨40, _⟩ => ⟨S1650000x1, .i32⟩
  | .hbm, ⟨41, _⟩ => ⟨S1650000, .f32⟩
  | .hbm, ⟨42, _⟩ => ⟨S1650000, .f32⟩
  | .hbm, ⟨43, _⟩ => ⟨S1650000x1, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S50000x64, .f32⟩
  | .hbm, ⟨49, _⟩ => ⟨S_, .i32⟩
  | .hbm, ⟨50, _⟩ => ⟨S1650000, .i32⟩
  | .hbm, ⟨51, _⟩ => ⟨S1650000, .i1⟩
  | .hbm, ⟨52, _⟩ => ⟨S_, .i32⟩
  | .hbm, ⟨53, _⟩ => ⟨S1650000, .i32⟩
  | .hbm, ⟨54, _⟩ => ⟨S1650000, .i32⟩
  | .hbm, ⟨55, _⟩ => ⟨S1650000, .i32⟩
  | .hbm, ⟨56, _⟩ => ⟨S1650000x1, .i32⟩
  | .hbm, ⟨57, _⟩ => ⟨S1650000x64, .f32⟩
  | .hbm, ⟨58, _⟩ => ⟨S1650000x64, .f32⟩
  | .hbm, ⟨59, _⟩ => ⟨S1650000x64, .f32⟩
  | .hbm, ⟨60, _⟩ => ⟨S_, .f32⟩
  | .hbm, ⟨61, _⟩ => ⟨S50000x64, .f32⟩
  | .hbm, ⟨62, _⟩ => ⟨S1650000x1, .i32⟩
  | .hbm, ⟨63, _⟩ => ⟨S50000x64, .f32⟩
  | .hbm, ⟨64, _⟩ => ⟨S50000x64, .f32⟩
  | .hbm, ⟨65, _⟩ => ⟨S_, .i32⟩
  | .hbm, ⟨66, _⟩ => ⟨S1650000, .i32⟩
  | .hbm, ⟨67, _⟩ => ⟨S1650000, .i1⟩
  | .hbm, ⟨68, _⟩ => ⟨S_, .i32⟩
  | .hbm, ⟨69, _⟩ => ⟨S1650000, .i32⟩
  | .hbm, ⟨70, _⟩ => ⟨S1650000, .i32⟩
  | .hbm, ⟨71, _⟩ => ⟨S1650000, .i32⟩
  | .hbm, ⟨72, _⟩ => ⟨S1650000x1, .i32⟩
  | .hbm, ⟨73, _⟩ => ⟨S1650000x64, .f32⟩
  | .hbm, ⟨74, _⟩ => ⟨S1650000x64, .f32⟩
  | .hbm, ⟨75, _⟩ => ⟨S1650000x64, .f32⟩
  | .hbm, ⟨76, _⟩ => ⟨S_, .f32⟩
  | .hbm, ⟨77, _⟩ => ⟨S50000x64, .f32⟩
  | .hbm, ⟨78, _⟩ => ⟨S1650000x1, .i32⟩
  | .hbm, ⟨79, _⟩ => ⟨S50000x64, .f32⟩
  | .hbm, ⟨80, _⟩ => ⟨S50000x64, .f32⟩
  | .hbm, ⟨81, _⟩ => ⟨S_, .i32⟩
  | .hbm, ⟨82, _⟩ => ⟨S1650000, .i32⟩
  | .hbm, ⟨83, _⟩ => ⟨S1650000, .i1⟩
  | .hbm, ⟨84, _⟩ => ⟨S_, .i32⟩
  | .hbm, ⟨85, _⟩ => ⟨S1650000, .i32⟩
  | .hbm, ⟨86, _⟩ => ⟨S1650000, .i32⟩
  | .hbm, ⟨87, _⟩ => ⟨S1650000, .i32⟩
  | .hbm, ⟨88, _⟩ => ⟨S1650000x1, .i32⟩
  | .hbm, ⟨89, _⟩ => ⟨S1650000x64, .f32⟩
  | .hbm, ⟨90, _⟩ => ⟨S1650000x64, .f32⟩
  | .hbm, ⟨91, _⟩ => ⟨S1650000x64, .f32⟩
  | .hbm, ⟨92, _⟩ => ⟨S_, .f32⟩
  | .hbm, ⟨93, _⟩ => ⟨S50000x64, .f32⟩
  | .hbm, ⟨94, _⟩ => ⟨S1650000x1, .i32⟩
  | .hbm, ⟨95, _⟩ => ⟨S50000x64, .f32⟩
  | .hbm, ⟨96, _⟩ => ⟨S50000x64, .f32⟩
  | .hbm, ⟨97, _⟩ => ⟨S_, .i32⟩
  | .hbm, ⟨98, _⟩ => ⟨S1650000, .i32⟩
  | .hbm, ⟨99, _⟩ => ⟨S1650000, .i1⟩
  | .hbm, ⟨100, _⟩ => ⟨S_, .i32⟩
  | .hbm, ⟨101, _⟩ => ⟨S1650000, .i32⟩
  | .hbm, ⟨102, _⟩ => ⟨S1650000, .i32⟩
  | .hbm, ⟨103, _⟩ => ⟨S1650000, .i32⟩
  | .hbm, ⟨104, _⟩ => ⟨S1650000x1, .i32⟩
  | .hbm, ⟨105, _⟩ => ⟨S1650000x64, .f32⟩
  | .hbm, ⟨106, _⟩ => ⟨S1650000x64, .f32⟩
  | .hbm, ⟨107, _⟩ => ⟨S1650000x64, .f32⟩
  | .hbm, ⟨108, _⟩ => ⟨S_, .f32⟩
  | .hbm, ⟨109, _⟩ => ⟨S50000x64, .f32⟩
  | .hbm, ⟨110, _⟩ => ⟨S1650000x1, .i32⟩
  | .hbm, ⟨111, _⟩ => ⟨S50000x64, .f32⟩
  | .hbm, ⟨112, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S64x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_10 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_13 : Ref sig .tc := ⟨.hbm, 97, rfl⟩
abbrev main_v72 : Ref sig .tc := ⟨.hbm, 98, rfl⟩
abbrev main_v73 : Ref sig .tc := ⟨.hbm, 99, rfl⟩
abbrev main_c_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v83) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S50000, .i32⟩
  | 11 => ⟨S1x1600000, .i32⟩
  | 12 => ⟨S1600000, .i32⟩
  | 13 => ⟨S1650000, .i32⟩
  | 14 => ⟨S1x1600000, .i32⟩
  | 15 => ⟨S1600000, .i32⟩
  | 16 => ⟨S1650000, .i32⟩
  | 17 => ⟨S_, .f32⟩
  | 18 => ⟨S1650000, .f32⟩
  | 19 => ⟨S_, .f32⟩
  | 20 => ⟨S50000, .f32⟩
  | 21 => ⟨S1650000x1, .i32⟩
  | 22 => ⟨S50000, .f32⟩
  | 23 => ⟨S50000, .f32⟩
  | 24 => ⟨S_, .i32⟩
  | 25 => ⟨S1650000, .i32⟩
  | 26 => ⟨S1650000, .i1⟩
  | 27 => ⟨S_, .i32⟩
  | 28 => ⟨S1650000, .i32⟩
  | 29 => ⟨S1650000, .i32⟩
  | 30 => ⟨S1650000, .i32⟩
  | 31 => ⟨S1650000x1, .i32⟩
  | 32 => ⟨S1650000, .f32⟩
  | 33 => ⟨S_, .i32⟩
  | 34 => ⟨S1650000, .i32⟩
  | 35 => ⟨S1650000, .i1⟩
  | 36 => ⟨S_, .i32⟩
  | 37 => ⟨S1650000, .i32⟩
  | 38 => ⟨S1650000, .i32⟩
  | 39 => ⟨S1650000, .i32⟩
  | 40 => ⟨S1650000x1, .i32⟩
  | 41 => ⟨S1650000, .f32⟩
  | 42 => ⟨S1650000, .f32⟩
  | 43 => ⟨S1650000x1, .f32⟩
  | 44 => ⟨S50000x64, .f32⟩
  | 45 => ⟨S_, .i32⟩
  | 46 => ⟨S1650000, .i32⟩
  | 47 => ⟨S1650000, .i1⟩
  | 48 => ⟨S_, .i32⟩
  | 49 => ⟨S1650000, .i32⟩
  | 50 => ⟨S1650000, .i32⟩
  | 51 => ⟨S1650000, .i32⟩
  | 52 => ⟨S1650000x1, .i32⟩
  | 53 => ⟨S1650000x64, .f32⟩
  | 54 => ⟨S1650000x64, .f32⟩
  | 55 => ⟨S1650000x64, .f32⟩
  | 56 => ⟨S_, .f32⟩
  | 57 => ⟨S50000x64, .f32⟩
  | 58 => ⟨S1650000x1, .i32⟩
  | 59 => ⟨S50000x64, .f32⟩
  | 60 => ⟨S1x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S50000x64, .f32⟩
  | 67 => ⟨S_, .i32⟩
  | 68 => ⟨S1650000, .i32⟩
  | 69 => ⟨S1650000, .i1⟩
  | 70 => ⟨S_, .i32⟩
  | 71 => ⟨S1650000, .i32⟩
  | 72 => ⟨S1650000, .i32⟩
  | 73 => ⟨S1650000, .i32⟩
  | 74 => ⟨S1650000x1, .i32⟩
  | 75 => ⟨S1650000x64, .f32⟩
  | 76 => ⟨S1650000x64, .f32⟩
  | 77 => ⟨S1650000x64, .f32⟩
  | 78 => ⟨S_, .f32⟩
  | 79 => ⟨S50000x64, .f32⟩
  | 80 => ⟨S1650000x1, .i32⟩
  | 81 => ⟨S50000x64, .f32⟩
  | 82 => ⟨S1x64, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S50000x64, .f32⟩
  | 89 => ⟨S_, .i32⟩
  | 90 => ⟨S1650000, .i32⟩
  | 91 => ⟨S1650000, .i1⟩
  | 92 => ⟨S_, .i32⟩
  | 93 => ⟨S1650000, .i32⟩
  | 94 => ⟨S1650000, .i32⟩
  | 95 => ⟨S1650000, .i32⟩
  | 96 => ⟨S1650000x1, .i32⟩
  | 97 => ⟨S1650000x64, .f32⟩
  | 98 => ⟨S1650000x64, .f32⟩
  | 99 => ⟨S1650000x64, .f32⟩
  | 100 => ⟨S_, .f32⟩
  | 101 => ⟨S50000x64, .f32⟩
  | 102 => ⟨S1650000x1, .i32⟩
  | 103 => ⟨S50000x64, .f32⟩
  | 104 => ⟨S1x64, .f32⟩
  | 105 => ⟨S50000x64, .f32⟩
  | 106 => ⟨S50000x64, .f32⟩
  | 107 => ⟨S_, .f32⟩
  | 108 => ⟨S50000x64, .f32⟩
  | 109 => ⟨S50000x64, .f32⟩
  | 110 => ⟨S50000x64, .f32⟩
  | 111 => ⟨S_, .i32⟩
  | 112 => ⟨S1650000, .i32⟩
  | 113 => ⟨S1650000, .i1⟩
  | 114 => ⟨S_, .i32⟩
  | 115 => ⟨S1650000, .i32⟩
  | 116 => ⟨S1650000, .i32⟩
  | 117 => ⟨S1650000, .i32⟩
  | 118 => ⟨S1650000x1, .i32⟩
  | 119 => ⟨S1650000x64, .f32⟩
  | 120 => ⟨S1650000x64, .f32⟩
  | 121 => ⟨S1650000x64, .f32⟩
  | 122 => ⟨S_, .f32⟩
  | 123 => ⟨S50000x64, .f32⟩
  | 124 => ⟨S1650000x1, .i32⟩
  | 125 => ⟨S50000x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_v62 : Ref sig .tc := ⟨.hbm, 88, rfl⟩
abbrev main_c_10 : Ref sig .tc := ⟨.hbm, 89, rfl⟩
abbrev main_v63 : Ref sig .tc := ⟨.hbm, 90, rfl⟩
abbrev main_v64 : Ref sig .tc := ⟨.hbm, 91, rfl⟩
abbrev main_c_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_12 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_call2_cst : Ref sig .tc := ⟨.hbm, 107, rfl⟩
abbrev main_call2_v0 : Ref sig .tc := ⟨.hbm, 108, rfl⟩
abbrev main_v78 : Ref sig .tc := ⟨.hbm, 109, rfl⟩
abbrev main_v79 : Ref sig .tc := ⟨.hbm, 110, rfl⟩
abbrev main_c_13 : Ref sig .tc := ⟨.hbm, 111, rfl⟩
abbrev main_v80 : Ref sig .tc := ⟨.hbm, 112, rfl⟩
abbrev main_v81 : Ref sig .tc := ⟨.hbm, 113, rfl⟩
abbrev main_c_14 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_15 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x64_S50000x64_1_0_0_1_n_n_wf : DotDims.WF S50000x64 S64x64 S50000x64 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.RunValue.lean ====
/-
  Where the program's run ends.

  @main is ten segments: a stretch of host operations, then a region, five times over. The contents of every
  buffer at each segment boundary are a fold from the launch memory: a host stretch applies its operations, a region
  replaces its arrays by what its write-backs leave. Every weakly fair execution runs through the segments in order,
  so it terminates, nothing faulting, with every unscoped buffer at the last boundary's contents. Read at the result
  buffer that is what the last region leaves; read at an argument it is the launch contents, since no segment writes
  an argument.
-/
import proofs.«113716_j32942399160406_1_alg».proof.Proof.Gen.KernelIdeal.Frame

noncomputable section

set_option maxRecDepth 16384

namespace Cert.KernelIdeal.RegVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last segment boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The same run read at the result and at the ten arguments. -/
theorem run_value : θ_run defs (onTc (τ := τ) (main (F := F))) ⟨m, fun _ => 0, ρ⟩ (fun r => ∀ c : Dev nD,
      r.2.mem ((c.tc : Thread nD τ).loc main_v84) = W10 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v84 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)
    (run_boundary m ρ)

end Cert.KernelIdeal.RegVal

end
-- ==== Proof.HostShared.lean ====
/-
  The host-side graph arithmetic both programs share, as functions of arrays.

  Every layer gathers the projected rows by source node, scales each gathered row by the edge's normalisation and
  adds it into the row of its destination node. The source and destination lists are the two rows of the edge array,
  each followed by the self-loops 0 … 49999; a negative entry is wrapped by adding the node count before the gather;
  the normalisation of an edge is `deg^(-1/2)` at its source times `deg^(-1/2)` at its destination, the degree being the
  number of list entries pointing at the node.
-/
import proofs.«113716_j32942399160406_1_alg».proof.KernelIdeal
import Idealize.ShloMosaic.PureOps.Ideal

noncomputable section

namespace Cert.KernelIdeal.RegVal

open Cert.KernelIdeal Idealize.ShloMosaic Idealize.ShloMosaic.TcCoe Idealize.SL.Sem

variable [Cert.KernelIdeal.Facts]
open Cert.KernelIdeal.Facts₀ Cert.KernelIdeal.Facts

/-- One row of the edge array followed by the self-loops. -/
def srcOf (e : (⟨S2x1600000, .i32⟩ : BufTy).Contents (Elt Ideal)) : (⟨S1650000, .i32⟩ : BufTy).Contents (Elt Ideal) :=
  concatenate S1650000 0 [⟨S1600000, shapeCast S1600000 (extractStridedSlice S1x1600000 ![0, 0] e slices_S2x1600000_S1x1600000_0_0) shapeCasts_S1x1600000_S1600000⟩, ⟨S50000, iotaInDim S50000 32 0⟩] concatenates_S1600000_S50000_S1650000_d0
def dstOf (e : (⟨S2x1600000, .i32⟩ : BufTy).Contents (Elt Ideal)) : (⟨S1650000, .i32⟩ : BufTy).Contents (Elt Ideal) :=
  concatenate S1650000 0 [⟨S1600000, shapeCast S1600000 (extractStridedSlice S1x1600000 ![1, 0] e slices_S2x1600000_S1x1600000_1_0) shapeCasts_S1x1600000_S1600000⟩, ⟨S50000, iotaInDim S50000 32 0⟩] concatenates_S1600000_S50000_S1650000_d0

/-- A node list as gather indices: a negative entry wraps around by the node count. -/
def wrapIdx (s : (⟨S1650000, .i32⟩ : BufTy).Contents (Elt Ideal)) : (⟨S1650000x1, .i32⟩ : BufTy).Contents (Elt Ideal) :=
  broadcastInDim S1650000x1 ![0] bcast_S1650000_S1650000x1_0
    (select (cmpi .slt s (broadcastInDim S1650000 ![] bcast_S_S1650000 (constantI S_ 32 0#32)))
      (addi s (broadcastInDim S1650000 ![] bcast_S_S1650000 (constantI S_ 32 50000#32))) s)

/-- `deg^(-1/2)` per node: the number of list entries at the node, under the reciprocal square root. -/
def degInv (d : (⟨S1650000, .i32⟩ : BufTy).Contents (Elt Ideal)) : (⟨S50000, .f32⟩ : BufTy).Contents (Elt Ideal) :=
  Host.rsqrt (F := Ideal) (Host.scatterAdd (F := Ideal) scatter_S50000_S1650000x1_S1650000_n_0_0_1
    (broadcastInDim S50000 ![] bcast_S_S50000 (constant (F := Ideal) S_ .f32 0x00000000#32))
    (broadcastInDim S1650000x1 ![0] bcast_S1650000_S1650000x1_0 d)
    (broadcastInDim S1650000 ![] bcast_S_S1650000 (constant (F := Ideal) S_ .f32 0x3F800000#32)))

/-- The normalisation of every edge, as a column. -/
def normOf (s d : (⟨S1650000, .i32⟩ : BufTy).Contents (Elt Ideal)) : (⟨S1650000x1, .f32⟩ : BufTy).Contents (Elt Ideal) :=
  broadcastInDim S1650000x1 ![0] bcast_S1650000_S1650000x1_0
    (mulf (F := Ideal) (φ := .f32) (Host.gather gather_S50000_S1650000x1_S1650000_n_0_n_n_0_1_1 (degInv d) (wrapIdx s))
      (Host.gather gather_S50000_S1650000x1_S1650000_n_0_n_n_0_1_1 (degInv d) (wrapIdx d)))

/-- One aggregation: gather the rows of `P` by source, scale by the normalisation, add into the destination rows. -/
def aggregate (P : (⟨S50000x64, .f32⟩ : BufTy).Contents (Elt Ideal)) (s d : (⟨S1650000, .i32⟩ : BufTy).Contents (Elt Ideal))
    (n : (⟨S1650000x1, .f32⟩ : BufTy).Contents (Elt Ideal)) : (⟨S50000x64, .f32⟩ : BufTy).Contents (Elt Ideal) :=
  Host.scatterAdd (F := Ideal) scatter_S50000x64_S1650000x1_S1650000x64_1_0_0_1
    (broadcastInDim S50000x64 ![] bcast_S_S50000x64 (constant (F := Ideal) S_ .f32 0x00000000#32))
    (broadcastInDim S1650000x1 ![0] bcast_S1650000_S1650000x1_0 d)
    (mulf (F := Ideal) (φ := .f32) (Host.gather gather_S50000x64_S1650000x1_S1650000x64_1_0_n_n_0_1_164 P (wrapIdx s))
      (broadcastInDim S1650000x64 ![0, 1] bcast_S1650000x1_S1650000x64_0_1 n))

/-- A bias vector as a one-row matrix. -/
def biasRow (b : (⟨S64, .f32⟩ : BufTy).Contents (Elt Ideal)) : (⟨S1x64, .f32⟩ : BufTy).Contents (Elt Ideal) :=
  fun i => shapeCast S1x64 b shapeCasts_S64_S1x64 i

end Cert.KernelIdeal.RegVal

end
-- ==== Proof.HostChain0.lean ====
/-
  What the first stretch of host operations leaves: the source and destination lists and the edges' normalisation read
  off the edge array, the four bias vectors as one-row matrices, and every argument as launched.
-/
import proofs.«113716_j32942399160406_1_alg».proof.Proof.Gen.KernelIdeal.Frame
import proofs.«113716_j32942399160406_1_alg».proof.Proof.HostShared
import Idealize.ShloMosaic.Lib.StableHlo.Run

noncomputable section

set_option maxRecDepth 16384

namespace Cert.KernelIdeal.RegVal

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The source list. -/
theorem first_src : W1 (F := Ideal) m ρ c (Proc.devRef .tc main_v3) = srcOf (m ((c : Thread nD τ).loc main_arg1)) := by
  show StableHlo.after hostOps0 (W0 m ρ c) (Proc.devRef .tc main_v3) = _
  unfold hostOps0
  after_results_simp
  rfl

/-- The destination list. -/
theorem first_dst : W1 (F := Ideal) m ρ c (Proc.devRef .tc main_v6) = dstOf (m ((c : Thread nD τ).loc main_arg1)) := by
  show StableHlo.after hostOps0 (W0 m ρ c) (Proc.devRef .tc main_v6) = _
  unfold hostOps0
  after_results_simp
  rfl

/-- The edges' normalisation. -/
theorem first_norm : W1 (F := Ideal) m ρ c (Proc.devRef .tc main_v27) = normOf (srcOf (m ((c : Thread nD τ).loc main_arg1))) (dstOf (m ((c : Thread nD τ).loc main_arg1))) := by
  show StableHlo.after hostOps0 (W0 m ρ c) (Proc.devRef .tc main_v27) = _
  unfold hostOps0
  after_results_simp
  rfl

/-- A bias vector as a one-row matrix. -/
theorem first_main_v28 : W1 (F := Ideal) m ρ c (Proc.devRef .tc main_v28) = biasRow (m ((c : Thread nD τ).loc main_arg3)) := by
  show StableHlo.after hostOps0 (W0 m ρ c) (Proc.devRef .tc main_v28) = _
  unfold hostOps0
  after_results_simp
  rfl

/-- A bias vector as a one-row matrix. -/
theorem first_main_v29 : W1 (F := Ideal) m ρ c (Proc.devRef .tc main_v29) = biasRow (m ((c : Thread nD τ).loc main_arg5)) := by
  show StableHlo.after hostOps0 (W0 m ρ c) (Proc.devRef .tc main_v29) = _
  unfold hostOps0
  after_results_simp
  rfl

/-- A bias vector as a one-row matrix. -/
theorem first_main_v30 : W1 (F := Ideal) m ρ c (Proc.devRef .tc main_v30) = biasRow (m ((c : Thread nD τ).loc main_arg7)) := by
  show StableHlo.after hostOps0 (W0 m ρ c) (Proc.devRef .tc main_v30) = _
  unfold hostOps0
  after_results_simp
  rfl

/-- A bias vector as a one-row matrix. -/
theorem first_main_v31 : W1 (F := Ideal) m ρ c (Proc.devRef .tc main_v31) = biasRow (m ((c : Thread nD τ).loc main_arg9)) := by
  show StableHlo.after hostOps0 (W0 m ρ c) (Proc.devRef .tc main_v31) = _
  unfold hostOps0
  after_results_simp
  rfl

/-- An argument is as launched. -/
theorem first_main_arg0 : W1 (F := Ideal) m ρ c (Proc.devRef .tc main_arg0) = m ((c : Thread nD τ).loc main_arg0) := by
  show StableHlo.after hostOps0 (W0 m ρ c) (Proc.devRef .tc main_arg0) = _
  unfold hostOps0
  after_results_simp

/-- An argument is as launched. -/
theorem first_main_arg2 : W1 (F := Ideal) m ρ c (Proc.devRef .tc main_arg2) = m ((c : Thread nD τ).loc main_arg2) := by
  show StableHlo.after hostOps0 (W0 m ρ c) (Proc.devRef .tc main_arg2) = _
  unfold hostOps0
  after_results_simp

/-- An argument is as launched. -/
theorem first_main_arg4 : W1 (F := Ideal) m ρ c (Proc.devRef .tc main_arg4) = m ((c : Thread nD τ).loc main_arg4) := by
  show StableHlo.after hostOps0 (W0 m ρ c) (Proc.devRef .tc main_arg4) = _
  unfold hostOps0
  after_results_simp

/-- An argument is as launched. -/
theorem first_main_arg6 : W1 (F := Ideal) m ρ c (Proc.devRef .tc main_arg6) = m ((c : Thread nD τ).loc main_arg6) := by
  show StableHlo.after hostOps0 (W0 m ρ c) (Proc.devRef .tc main_arg6) = _
  unfold hostOps0
  after_results_simp

/-- An argument is as launched. -/
theorem first_main_arg8 : W1 (F := Ideal) m ρ c (Proc.devRef .tc main_arg8) = m ((c : Thread nD τ).loc main_arg8) := by
  show StableHlo.after hostOps0 (W0 m ρ c) (Proc.devRef .tc main_arg8) = _
  unfold hostOps0
  after_results_simp

end Cert.KernelIdeal.RegVal

end
-- ==== Proof.Region0.lean ====
/-
  The first projection, `X · W₁`, as one function of the two arrays the region finds.

  The region walks the 50000 rows in ten blocks of 5000; at each block the body rounds both operands to bf16
  (the identity on the extended reals), multiplies them into a zero accumulator and stores the 5000 × 64 product.
  Entry `(r, c)` of the stored block is `∑ₖ x(r, k) · w(k, c)` over the 128 columns, and row `r` of block `t` is row
  `5000·t + r` of the array, so the ten blocks together are the whole product, entry by entry.
-/
import proofs.«113716_j32942399160406_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.Pipeline (Dat)

/-- Row `i 0`, column `k` of the left operand. -/
abbrev lrow128 (i : S50000x64.Idx) (k : Fin 128) : S50000x128.Idx := fun a => match a with
  | ⟨0, _⟩ => ⟨(i 0).val, (i 0).isLt⟩
  | ⟨1, _⟩ => ⟨k.val, k.isLt⟩
/-- Row `k`, column `i 1` of the right operand. -/
abbrev rcol128 (i : S50000x64.Idx) (k : Fin 128) : S128x64.Idx := fun a => match a with
  | ⟨0, _⟩ => ⟨k.val, k.isLt⟩
  | ⟨1, _⟩ => ⟨(i 1).val, (i 1).isLt⟩

/-- The matrix product of a 50000 × 128 array with a 128 × 64 one, entry by entry. -/
def prod128 (x : S50000x128.Idx → EReal) (w : S128x64.Idx → EReal) : S50000x64.Idx → EReal :=
  fun i => ∑ k : Fin 128, x (lrow128 i k) * w (rcol128 i k)

/-- The same two index maps inside one block of 5000 rows. -/
abbrev lblk128 (j : S5000x64.Idx) (k : Fin 128) : S5000x128.Idx := fun a => match a with
  | ⟨0, _⟩ => ⟨(j 0).val, (j 0).isLt⟩
  | ⟨1, _⟩ => ⟨k.val, k.isLt⟩
abbrev rblk128 (j : S5000x64.Idx) (k : Fin 128) : S128x64.Idx := fun a => match a with
  | ⟨0, _⟩ => ⟨k.val, k.isLt⟩
  | ⟨1, _⟩ => ⟨(j 1).val, (j 1).isLt⟩

theorem lhs0_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs0_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs0_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs0_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The stored block, entry by entry: the product of the two loaded blocks over the 128 contracted columns
    (rounding to bf16 is the identity on the extended reals, and the accumulator starts at zero). -/
theorem pay0_apply (x0 : Vec Ideal S5000x128 .f32) (x1 : Vec Ideal S128x64 .f32) (j : S5000x64.Idx) :
    k0_pay1 (F := Ideal) x0 x1 j = ∑ k : Fin 128, x0 (lblk128 j k) * x1 (rblk128 j k) := by
  unfold k0_pay1
  refine (Ideal.matmul_constant_zero_apply dot_S5000x128_S128x64_S5000x64_1_0_0_1_n_n none _ _ j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = lblk128 j k := funext fun a => Fin.ext (by
    match a with
    | ⟨0, _⟩ => exact lhs0_0 _ _
    | ⟨1, _⟩ => exact (lhs0_1 _ _).trans hk)
  have er : dot_S5000x128_S128x64_S5000x64_1_0_0_1_n_n.rhsIdx j ((ValueIdx.contrEquiv1 dot_S5000x128_S128x64_S5000x64_1_0_0_1_n_n 128 rfl rfl).symm k) = rblk128 j k := funext fun a => Fin.ext (by
    match a with
    | ⟨0, _⟩ => exact (rhs0_0 _ _).trans hk
    | ⟨1, _⟩ => exact rhs0_1 _ _)
  rw [el, er]
  rfl

/-! ## From the ten blocks to the array -/

section Blocks
variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the ten points: the rows of both the left operand and the product move with the
    point, the right operand stays whole. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem read_left0 (c : Dev nD) (t : Fin cfg0.N) (y : S5000x128.Idx) :
    iblk0 V c 0 t y = V c main_arg0 (((cfg0.win 0).blk t).view.emb y) := rfl
theorem read_right0 (c : Dev nD) (t : Fin cfg0.N) (y : S128x64.Idx) :
    iblk0 V c 1 t y = V c main_arg2 (((cfg0.win 1).blk t).view.emb y) := rfl

/-- What point `t` writes back is block `t` of the whole product. -/
theorem flushed0 (c : Dev nD) (t : Fin cfg0.N) :
    (dat0 V c).flushed 2 t = ((cfg0.win 2).blk t).view.read (Elt Ideal) (prod128 (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x64) zero_offsets]
  obtain ⟨e0, e1, e2, e3, e4, e5⟩ := index_facts0 t
  funext j
  show k0_pay1 (iblk0 V c 0 t) (iblk0 V c 1 t) j = prod128 (V c main_arg0) (V c main_arg2) (((cfg0.win 2).blk t).view.emb j)
  refine (pay0_apply _ _ j).trans ?_
  unfold prod128
  refine Finset.sum_congr rfl fun k _ => ?_
  have h0 : ((cfg0.win 0).blk t).view.emb (lblk128 j k) = lrow128 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (rblk128 j k) = rcol128 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [read_left0, read_right0, h0, h1]

/-- An index of the product is in point `t`'s block iff its row lies in the block's 5000 rows. -/
theorem mem_block0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every row belongs to one of the ten blocks: row `r` to block `r / 5000`. -/
theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 10 := N_0
  let t : Fin cfg0.N := ⟨(i 0).val / 5000, by show (i 0).val / 5000 < grid0.N; omega⟩
  obtain ⟨e0, e1, e2, e3, e4, e5⟩ := index_facts0 t
  have ht : t.val = (i 0).val / 5000 := rfl
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region its output array holds the whole product of the two arrays it found. -/
theorem final0 (c : Dev nD) :
    (dat0 V c).arrAt 2 cfg0.N = prod128 (V c main_arg0) (V c main_arg2) :=
  (dat0 V c).arrAt_eq_of_cover 2 (prod128 (V c main_arg0) (V c main_arg2)) (fun t _ => flushed0 V c t) cover0

end Blocks

end Cert.KernelIdeal.RegVal

end
-- ==== Proof.Layer.lean ====
/-
  One hidden layer's projection, `relu(A + b) · W`, as a function of whole arrays, and the same read inside one block.

  The body adds the bias row to every row of the loaded 5000 × 64 block, clamps at zero, rounds to bf16 (the
  identity on the extended reals) and multiplies by the 64 × 64 weight into a zero accumulator. Entry `(r, c)` of the
  stored block is therefore `∑ₖ max (a(r, k) + b(0, k)) 0 · w(k, c)` over the 64 hidden columns. The three hidden
  layers run the same body.
-/
import proofs.«113716_j32942399160406_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.RegVal

open Cert.KernelIdeal Cert.KernelIdeal.Gen Idealize.ShloMosaic Idealize.ShloMosaic.TcCoe Idealize.SL.Sem

/-- Row `i 0`, column `k` of the activations. -/
abbrev lrow64 (i : S50000x64.Idx) (k : Fin 64) : S50000x64.Idx := fun a => match a with
  | ⟨0, _⟩ => ⟨(i 0).val, (i 0).isLt⟩
  | ⟨1, _⟩ => ⟨k.val, k.isLt⟩
/-- Row `k`, column `i 1` of the weight. -/
abbrev rcol64 (i : S50000x64.Idx) (k : Fin 64) : S64x64.Idx := fun a => match a with
  | ⟨0, _⟩ => ⟨k.val, k.isLt⟩
  | ⟨1, _⟩ => ⟨(i 1).val, (i 1).isLt⟩
/-- Column `k` of the bias row. -/
abbrev bias64 (k : Fin 64) : S1x64.Idx := fun a => match a with
  | ⟨0, _⟩ => ⟨0, Nat.zero_lt_one⟩
  | ⟨1, _⟩ => ⟨k.val, k.isLt⟩

/-- `relu(A + b) · W`, entry by entry: the bias row added to every row, clamped at zero, times the weight. -/
def layer64 (a : S50000x64.Idx → Elt Ideal .f32) (b : S1x64.Idx → Elt Ideal .f32) (w : S64x64.Idx → Elt Ideal .f32) :
    S50000x64.Idx → Elt Ideal .f32 :=
  fun i => ∑ k : Fin 64, FloatOps.maximumf (FloatOps.addf (a (lrow64 i k)) (b (bias64 k))) (Scalar.ofBits (F := Ideal) .f32 0x00000000#32) * w (rcol64 i k)

/-- The bias row added to every row. -/
def biasAdd (a : S50000x64.Idx → Elt Ideal .f32) (b : S1x64.Idx → Elt Ideal .f32) : S50000x64.Idx → Elt Ideal .f32 :=
  fun i => FloatOps.addf (F := Ideal) (φ := .f32) (a i) (b (bias64 ⟨(i 1).val, (i 1).isLt⟩))

theorem no_offsets : (![0, 0] : Fin 2 → Nat) = fun _ => 0 := funext fun a => by fin_cases a <;> rfl

/-- The same index maps inside one block of 5000 rows. -/
abbrev lblk64 (j : S5000x64.Idx) (k : Fin 64) : S5000x64.Idx := fun a => match a with
  | ⟨0, _⟩ => ⟨(j 0).val, (j 0).isLt⟩
  | ⟨1, _⟩ => ⟨k.val, k.isLt⟩
abbrev rblk64 (j : S5000x64.Idx) (k : Fin 64) : S64x64.Idx := fun a => match a with
  | ⟨0, _⟩ => ⟨k.val, k.isLt⟩
  | ⟨1, _⟩ => ⟨(j 1).val, (j 1).isLt⟩

theorem lhs1_0 (j : S5000x64.Idx) (q : dot_S5000x64_S64x64_S5000x64_1_0_0_1_n_n.contr.Idx) : (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs1_1 (j : S5000x64.Idx) (q : dot_S5000x64_S64x64_S5000x64_1_0_0_1_n_n.contr.Idx) : (dot_S5000x64_S64x64_S5000x64_1_0_0_1_n_n.lhsIdx j q 1).val = (q ⟨0, by decide⟩).val :=
  dot_S5000x64_S64x64_S5000x64_1_0_0_1_n_n.lhsIdx_val_of_single rfl j q
theorem rhs1_0 (j : S5000x64.Idx) (q : dot_S5000x64_S64x64_S5000x64_1_0_0_1_n_n.contr.Idx) : (dot_S5000x64_S64x64_S5000x64_1_0_0_1_n_n.rhsIdx j q 0).val = (q ⟨0, by decide⟩).val :=
  dot_S5000x64_S64x64_S5000x64_1_0_0_1_n_n.rhsIdx_val_of_single rfl j q
theorem rhs1_1 (j : S5000x64.Idx) (q : dot_S5000x64_S64x64_S5000x64_1_0_0_1_n_n.contr.Idx) : (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The bias row broadcast over the block, read at row `r`: the row's own entry. -/
theorem bias_row_apply (x1 : S1x64.Idx → Elt Ideal .f32) (j : S5000x64.Idx) (k : Fin 64) :
    broadcastTo S5000x64 (shapeCast S1x64 x1 shapeCasts_S1x64_S1x64) broadcasts_S1x64_S5000x64 (lblk64 j k) = x1 (bias64 k) := by
  rw [shapeCast_self]
  refine broadcastTo_apply x1 broadcasts_S1x64_S5000x64 (lblk64 j k) (bias64 k) fun a => ?_
  match a with
  | ⟨0, _⟩ => rfl
  | ⟨1, _⟩ => rfl

/-- The stored block of the first hidden layer, entry by entry. -/
theorem pay1_apply (x0 : Vec Ideal S5000x64 .f32) (x1 : Vec Ideal S1x64 .f32) (x2 : Vec Ideal S64x64 .f32) (j : S5000x64.Idx) :
    k1_pay1 (F := Ideal) x0 x1 x2 j
      = ∑ k : Fin 64, FloatOps.maximumf (FloatOps.addf (x0 (lblk64 j k)) (x1 (bias64 k))) (Scalar.ofBits (F := Ideal) .f32 0x00000000#32) * x2 (rblk64 j k) := by
  unfold k1_pay1
  refine (Ideal.matmul_constant_zero_apply dot_S5000x64_S64x64_S5000x64_1_0_0_1_n_n none _ _ j).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = lblk64 j k := funext fun a => Fin.ext (by
    match a with
    | ⟨0, _⟩ => exact lhs1_0 _ _
    | ⟨1, _⟩ => exact (lhs1_1 _ _).trans hk)
  have er : dot_S5000x64_S64x64_S5000x64_1_0_0_1_n_n.rhsIdx j ((ValueIdx.contrEquiv1 dot_S5000x64_S64x64_S5000x64_1_0_0_1_n_n 64 rfl rfl).symm k) = rblk64 j k := funext fun a => Fin.ext (by
    match a with
    | ⟨0, _⟩ => exact (rhs1_0 _ _).trans hk
    | ⟨1, _⟩ => exact rhs1_1 _ _)
  rw [el, er]
  show FloatOps.maximumf (F := Ideal) (φ := .f32) (FloatOps.addf (F := Ideal) (φ := .f32) (shapeCast S5000x64 (x0 : S5000x64.Idx → Elt Ideal .f32) shapeCasts_S5000x64_S5000x64 (lblk64 j k))
      (broadcastTo S5000x64 (shapeCast S1x64 (x1 : S1x64.Idx → Elt Ideal .f32) shapeCasts_S1x64_S1x64) broadcasts_S1x64_S5000x64 (lblk64 j k)))
      (Scalar.ofBits (F := Ideal) .f32 0x00000000#32) * x2 (rblk64 j k) = _
  rw [shapeCast_self, bias_row_apply]

/-- The second and third hidden layers store the same function of their loads. -/
theorem pay2_eq : k2_pay1 (F := Ideal) = k1_pay1 (F := Ideal) := rfl
theorem pay3_eq : k3_pay1 (F := Ideal) = k1_pay1 (F := Ideal) := rfl

/-- The last region adds the bias row to every row of the block. -/
theorem pay4_apply (x0 : Vec Ideal S5000x64 .f32) (x1 : Vec Ideal S1x64 .f32) (j : S5000x64.Idx) :
    k4_pay1 (F := Ideal) x0 x1 j = FloatOps.addf (x0 j) (x1 (bias64 ⟨(j 1).val, (j 1).isLt⟩)) := by
  unfold k4_pay1
  show FloatOps.addf (F := Ideal) (φ := .f32) (shapeCast S5000x64 (x0 : S5000x64.Idx → Elt Ideal .f32) shapeCasts_S5000x64_S5000x64 j)
      (broadcastTo S5000x64 (shapeCast S1x64 (x1 : S1x64.Idx → Elt Ideal .f32) shapeCasts_S1x64_S1x64) broadcasts_S1x64_S5000x64 j) = _
  have hj : j = lblk64 j ⟨(j 1).val, (j 1).isLt⟩ := funext fun a => Fin.ext (by
    match a with
    | ⟨0, _⟩ => rfl
    | ⟨1, _⟩ => rfl)
  rw [shapeCast_self]
  conv_lhs => rw [hj, bias_row_apply]
  rw [← hj]

end Cert.KernelIdeal.RegVal

end
-- ==== Proof.Region1.lean ====
/-
  Hidden layer 1's projection `relu(A + b) · W` over the whole array: the region walks the 50000 rows in ten blocks
  of 5000, the bias row and the weight staying whole; row `r` of block `t` is row `5000·t + r` of the array, so the ten
  stored blocks are the layer's function of the arrays the region finds, entry by entry.
-/
import proofs.«113716_j32942399160406_1_alg».proof.Proof.Layer

noncomputable section

namespace Cert.KernelIdeal.RegVal

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The block index maps over the ten points: the activations' and the product's rows move with the point, the bias
    row and the weight stay whole. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem read_act1 (c : Dev nD) (t : Fin cfg1.N) (y : S5000x64.Idx) :
    iblk1 V c 0 t y = V c main_v44 (((cfg1.win 0).blk t).view.emb y) := rfl
theorem read_bias1 (c : Dev nD) (t : Fin cfg1.N) (y : S1x64.Idx) :
    iblk1 V c 1 t y = V c main_v28 (((cfg1.win 1).blk t).view.emb y) := rfl
theorem read_weight1 (c : Dev nD) (t : Fin cfg1.N) (y : S64x64.Idx) :
    iblk1 V c 2 t y = V c main_arg4 (((cfg1.win 2).blk t).view.emb y) := rfl

/-- What point `t` writes back is block `t` of the layer's whole-array function. -/
theorem flushed1 (c : Dev nD) (t : Fin cfg1.N) :
    (dat1 V c).flushed 3 t = ((cfg1.win 3).blk t).view.read (Elt Ideal) (layer64 (V c main_v44) (V c main_v28) (V c main_arg4)) := by
  show (cfg1.win 3).cut (grid1.coords t) ((dat1 V c).after 3 t) = _
  rw [after1_3]
  unfold out1_3
  rw [View.canon_unit_zero no_offsets]
  simp only [View.ld_unit_zero (S := S5000x64) no_offsets, View.ld_unit_zero (S := S1x64) no_offsets, View.ld_unit_zero (S := S64x64) no_offsets]
  obtain ⟨e0, e1, e2, e3, e4, e5, e6, e7⟩ := index_facts1 t
  funext j
  show k1_pay1 (iblk1 V c 0 t) (iblk1 V c 1 t) (iblk1 V c 2 t) j = layer64 (V c main_v44) (V c main_v28) (V c main_arg4) (((cfg1.win 3).blk t).view.emb j)
  refine (pay1_apply _ _ _ j).trans ?_
  unfold layer64
  refine Finset.sum_congr rfl fun k _ => ?_
  have h0 : ((cfg1.win 0).blk t).view.emb (lblk64 j k) = lrow64 (((cfg1.win 3).blk t).view.emb j) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  have h1 : ((cfg1.win 1).blk t).view.emb (bias64 k) = bias64 k := by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : ((cfg1.win 2).blk t).view.emb (rblk64 j k) = rcol64 (((cfg1.win 3).blk t).view.emb j) k := by
    funext a; apply Fin.ext
    match a with
    | ⟨0, _⟩ => show win1_2.index t (0 : Fin 2) * 64 + 1 * k.val = k.val; omega
    | ⟨1, _⟩ => show win1_2.index t (1 : Fin 2) * 64 + 1 * (j 1).val = win1_3.index t (1 : Fin 2) * 64 + 1 * (j 1).val; omega
  rw [read_act1, read_bias1, read_weight1, h0, h1, h2]

/-- An index of the output is in point `t`'s block iff its row lies in the block's 5000 rows. -/
theorem mem_block1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- Every row belongs to one of the ten blocks: row `r` to block `r / 5000`. -/
theorem cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : grid1.N = 10 := N_1
  let t : Fin cfg1.N := ⟨(i 0).val / 5000, by show (i 0).val / 5000 < grid1.N; omega⟩
  obtain ⟨e0, e1, e2, e3, e4, e5, e6, e7⟩ := index_facts1 t
  have ht : t.val = (i 0).val / 5000 := rfl
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the region its output array holds the layer's function of the three arrays it found. -/
theorem final1 (c : Dev nD) :
    (dat1 V c).arrAt 3 cfg1.N = layer64 (V c main_v44) (V c main_v28) (V c main_arg4) :=
  (dat1 V c).arrAt_eq_of_cover 3 (layer64 (V c main_v44) (V c main_v28) (V c main_arg4)) (fun t _ => flushed1 V c t) cover1

end Cert.KernelIdeal.RegVal

end
-- ==== Proof.Region2.lean ====
/-
  Hidden layer 2's projection `relu(A + b) · W` over the whole array: the region walks the 50000 rows in ten blocks
  of 5000, the bias row and the weight staying whole; row `r` of block `t` is row `5000·t + r` of the array, so the ten
  stored blocks are the layer's function of the arrays the region finds, entry by entry.
-/
import proofs.«113716_j32942399160406_1_alg».proof.Proof.Layer

noncomputable section

namespace Cert.KernelIdeal.RegVal

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The block index maps over the ten points: the activations' and the product's rows move with the point, the bias
    row and the weight stay whole. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem read_act2 (c : Dev nD) (t : Fin cfg2.N) (y : S5000x64.Idx) :
    iblk2 V c 0 t y = V c main_v57 (((cfg2.win 0).blk t).view.emb y) := rfl
theorem read_bias2 (c : Dev nD) (t : Fin cfg2.N) (y : S1x64.Idx) :
    iblk2 V c 1 t y = V c main_v29 (((cfg2.win 1).blk t).view.emb y) := rfl
theorem read_weight2 (c : Dev nD) (t : Fin cfg2.N) (y : S64x64.Idx) :
    iblk2 V c 2 t y = V c main_arg6 (((cfg2.win 2).blk t).view.emb y) := rfl

/-- What point `t` writes back is block `t` of the layer's whole-array function. -/
theorem flushed2 (c : Dev nD) (t : Fin cfg2.N) :
    (dat2 V c).flushed 3 t = ((cfg2.win 3).blk t).view.read (Elt Ideal) (layer64 (V c main_v57) (V c main_v29) (V c main_arg6)) := by
  show (cfg2.win 3).cut (grid2.coords t) ((dat2 V c).after 3 t) = _
  rw [after2_3]
  unfold out2_3
  rw [View.canon_unit_zero no_offsets]
  simp only [View.ld_unit_zero (S := S5000x64) no_offsets, View.ld_unit_zero (S := S1x64) no_offsets, View.ld_unit_zero (S := S64x64) no_offsets]
  obtain ⟨e0, e1, e2, e3, e4, e5, e6, e7⟩ := index_facts2 t
  funext j
  show k2_pay1 (iblk2 V c 0 t) (iblk2 V c 1 t) (iblk2 V c 2 t) j = layer64 (V c main_v57) (V c main_v29) (V c main_arg6) (((cfg2.win 3).blk t).view.emb j)
  rw [pay2_eq]
  refine (pay1_apply _ _ _ j).trans ?_
  unfold layer64
  refine Finset.sum_congr rfl fun k _ => ?_
  have h0 : ((cfg2.win 0).blk t).view.emb (lblk64 j k) = lrow64 (((cfg2.win 3).blk t).view.emb j) k := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * k.val = k.val; omega
  have h1 : ((cfg2.win 1).blk t).view.emb (bias64 k) = bias64 k := by
    funext a; apply Fin.ext
    match a with
    | ⟨0, _⟩ => show win2_1.index t (0 : Fin 2) * 1 + 1 * 0 = 0; omega
    | ⟨1, _⟩ => show win2_1.index t (1 : Fin 2) * 64 + 1 * k.val = k.val; omega
  have h2 : ((cfg2.win 2).blk t).view.emb (rblk64 j k) = rcol64 (((cfg2.win 3).blk t).view.emb j) k := by
    funext a; apply Fin.ext
    match a with
    | ⟨0, _⟩ => show win2_2.index t (0 : Fin 2) * 64 + 1 * k.val = k.val; omega
    | ⟨1, _⟩ => show win2_2.index t (1 : Fin 2) * 64 + 1 * (j 1).val = win2_3.index t (1 : Fin 2) * 64 + 1 * (j 1).val; omega
  rw [read_act2, read_bias2, read_weight2, h0, h1, h2]

/-- An index of the output is in point `t`'s block iff its row lies in the block's 5000 rows. -/
theorem mem_block2 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v58).slice (win2_3.rect t)).set ↔ _
  rw [View.set_slice_whole, Rect.mem_set_unit]
  exact Iff.rfl

/-- Every row belongs to one of the ten blocks: row `r` to block `r / 5000`. -/
theorem cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : grid2.N = 10 := N_2
  let t : Fin cfg2.N := ⟨(i 0).val / 5000, by show (i 0).val / 5000 < grid2.N; omega⟩
  obtain ⟨e0, e1, e2, e3, e4, e5, e6, e7⟩ := index_facts2 t
  have ht : t.val = (i 0).val / 5000 := rfl
  refine ⟨t, flush2_3 t, ?_⟩
  rw [mem_block2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- After the region its output array holds the layer's function of the three arrays it found. -/
theorem final2 (c : Dev nD) :
    (dat2 V c).arrAt 3 cfg2.N = layer64 (V c main_v57) (V c main_v29) (V c main_arg6) :=
  (dat2 V c).arrAt_eq_of_cover 3 (layer64 (V c main_v57) (V c main_v29) (V c main_arg6)) (fun t _ => flushed2 V c t) cover2

end Cert.KernelIdeal.RegVal

end
-- ==== Proof.Region3.lean ====
/-
  Hidden layer 3's projection `relu(A + b) · W` over the whole array: the region walks the 50000 rows in ten blocks
  of 5000, the bias row and the weight staying whole; row `r` of block `t` is row `5000·t + r` of the array, so the ten
  stored blocks are the layer's function of the arrays the region finds, entry by entry.
-/
import proofs.«113716_j32942399160406_1_alg».proof.Proof.Layer

noncomputable section

namespace Cert.KernelIdeal.RegVal

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The block index maps over the ten points: the activations' and the product's rows move with the point, the bias
    row and the weight stay whole. -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem read_act3 (c : Dev nD) (t : Fin cfg3.N) (y : S5000x64.Idx) :
    iblk3 V c 0 t y = V c main_v70 (((cfg3.win 0).blk t).view.emb y) := rfl
theorem read_bias3 (c : Dev nD) (t : Fin cfg3.N) (y : S1x64.Idx) :
    iblk3 V c 1 t y = V c main_v30 (((cfg3.win 1).blk t).view.emb y) := rfl
theorem read_weight3 (c : Dev nD) (t : Fin cfg3.N) (y : S64x64.Idx) :
    iblk3 V c 2 t y = V c main_arg8 (((cfg3.win 2).blk t).view.emb y) := rfl

/-- What point `t` writes back is block `t` of the layer's whole-array function. -/
theorem flushed3 (c : Dev nD) (t : Fin cfg3.N) :
    (dat3 V c).flushed 3 t = ((cfg3.win 3).blk t).view.read (Elt Ideal) (layer64 (V c main_v70) (V c main_v30) (V c main_arg8)) := by
  show (cfg3.win 3).cut (grid3.coords t) ((dat3 V c).after 3 t) = _
  rw [after3_3]
  unfold out3_3
  rw [View.canon_unit_zero no_offsets]
  simp only [View.ld_unit_zero (S := S5000x64) no_offsets, View.ld_unit_zero (S := S1x64) no_offsets, View.ld_unit_zero (S := S64x64) no_offsets]
  obtain ⟨e0, e1, e2, e3, e4, e5, e6, e7⟩ := index_facts3 t
  funext j
  show k3_pay1 (iblk3 V c 0 t) (iblk3 V c 1 t) (iblk3 V c 2 t) j = layer64 (V c main_v70) (V c main_v30) (V c main_arg8) (((cfg3.win 3).blk t).view.emb j)
  rw [pay3_eq]
  refine (pay1_apply _ _ _ j).trans ?_
  unfold layer64
  refine Finset.sum_congr rfl fun k _ => ?_
  have h0 : ((cfg3.win 0).blk t).view.emb (lblk64 j k) = lrow64 (((cfg3.win 3).blk t).view.emb j) k := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * k.val = k.val; omega
  have h1 : ((cfg3.win 1).blk t).view.emb (bias64 k) = bias64 k := by
    funext a; apply Fin.ext
    match a with
    | ⟨0, _⟩ => show win3_1.index t (0 : Fin 2) * 1 + 1 * 0 = 0; omega
    | ⟨1, _⟩ => show win3_1.index t (1 : Fin 2) * 64 + 1 * k.val = k.val; omega
  have h2 : ((cfg3.win 2).blk t).view.emb (rblk64 j k) = rcol64 (((cfg3.win 3).blk t).view.emb j) k := by
    funext a; apply Fin.ext
    match a with
    | ⟨0, _⟩ => show win3_2.index t (0 : Fin 2) * 64 + 1 * k.val = k.val; omega
    | ⟨1, _⟩ => show win3_2.index t (1 : Fin 2) * 64 + 1 * (j 1).val = win3_3.index t (1 : Fin 2) * 64 + 1 * (j 1).val; omega
  rw [read_act3, read_bias3, read_weight3, h0, h1, h2]

/-- An index of the output is in point `t`'s block iff its row lies in the block's 5000 rows. -/
theorem mem_block3 (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v71).slice (win3_3.rect t)).set ↔ _
  rw [View.set_slice_whole, Rect.mem_set_unit]
  exact Iff.rfl

/-- Every row belongs to one of the ten blocks: row `r` to block `r / 5000`. -/
theorem cover3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : grid3.N = 10 := N_3
  let t : Fin cfg3.N := ⟨(i 0).val / 5000, by show (i 0).val / 5000 < grid3.N; omega⟩
  obtain ⟨e0, e1, e2, e3, e4, e5, e6, e7⟩ := index_facts3 t
  have ht : t.val = (i 0).val / 5000 := rfl
  refine ⟨t, flush3_3 t, ?_⟩
  rw [mem_block3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- After the region its output array holds the layer's function of the three arrays it found. -/
theorem final3 (c : Dev nD) :
    (dat3 V c).arrAt 3 cfg3.N = layer64 (V c main_v70) (V c main_v30) (V c main_arg8) :=
  (dat3 V c).arrAt_eq_of_cover 3 (layer64 (V c main_v70) (V c main_v30) (V c main_arg8)) (fun t _ => flushed3 V c t) cover3

end Cert.KernelIdeal.RegVal

end
-- ==== Proof.Region4.lean ====
/-
  The last region adds the bias row to every row of the aggregated array, ten blocks of 5000 rows at a time; row
  `r` of block `t` is row `5000·t + r` of the array, so the ten stored blocks are the whole sum, entry by entry.
-/
import proofs.«113716_j32942399160406_1_alg».proof.Proof.Layer

noncomputable section

namespace Cert.KernelIdeal.RegVal

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The block index maps over the ten points: the rows of the input and of the output move with the point, the bias
    row stays whole. -/
theorem index_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem read_act4 (c : Dev nD) (t : Fin cfg4.N) (y : S5000x64.Idx) :
    iblk4 V c 0 t y = V c main_v83 (((cfg4.win 0).blk t).view.emb y) := rfl
theorem read_bias4 (c : Dev nD) (t : Fin cfg4.N) (y : S1x64.Idx) :
    iblk4 V c 1 t y = V c main_v31 (((cfg4.win 1).blk t).view.emb y) := rfl

/-- What point `t` writes back is block `t` of the whole biased array. -/
theorem flushed4 (c : Dev nD) (t : Fin cfg4.N) :
    (dat4 V c).flushed 2 t = ((cfg4.win 2).blk t).view.read (Elt Ideal) (biasAdd (V c main_v83) (V c main_v31)) := by
  show (cfg4.win 2).cut (grid4.coords t) ((dat4 V c).after 2 t) = _
  rw [after4_2]
  unfold out4_2
  rw [View.canon_unit_zero no_offsets]
  simp only [View.ld_unit_zero (S := S5000x64) no_offsets, View.ld_unit_zero (S := S1x64) no_offsets]
  obtain ⟨e0, e1, e2, e3, e4, e5⟩ := index_facts4 t
  funext j
  show k4_pay1 (iblk4 V c 0 t) (iblk4 V c 1 t) j = biasAdd (V c main_v83) (V c main_v31) (((cfg4.win 2).blk t).view.emb j)
  refine (pay4_apply _ _ j).trans ?_
  unfold biasAdd
  have h0 : ((cfg4.win 0).blk t).view.emb j = ((cfg4.win 2).blk t).view.emb j := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (bias64 ⟨(j 1).val, (j 1).isLt⟩)
      = bias64 ⟨((((cfg4.win 2).blk t).view.emb j) 1).val, ((((cfg4.win 2).blk t).view.emb j) 1).isLt⟩ := by
    funext a; apply Fin.ext
    match a with
    | ⟨0, _⟩ => show win4_1.index t (0 : Fin 2) * 1 + 1 * 0 = 0; omega
    | ⟨1, _⟩ => show win4_1.index t (1 : Fin 2) * 64 + 1 * (j 1).val = win4_2.index t (1 : Fin 2) * 64 + 1 * (j 1).val; omega
  rw [read_act4, read_bias4, h0, h1]

/-- An index of the output is in point `t`'s block iff its row lies in the block's 5000 rows. -/
theorem mem_block4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v84).slice (win4_2.rect t)).set ↔ _
  rw [View.set_slice_whole, Rect.mem_set_unit]
  exact Iff.rfl

/-- Every row belongs to one of the ten blocks: row `r` to block `r / 5000`. -/
theorem cover4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  have hN : grid4.N = 10 := N_4
  let t : Fin cfg4.N := ⟨(i 0).val / 5000, by show (i 0).val / 5000 < grid4.N; omega⟩
  obtain ⟨e0, e1, e2, e3, e4, e5⟩ := index_facts4 t
  have ht : t.val = (i 0).val / 5000 := rfl
  refine ⟨t, flush4_2 t, ?_⟩
  rw [mem_block4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- After the region its output array holds the aggregated array plus the bias row. -/
theorem final4 (c : Dev nD) :
    (dat4 V c).arrAt 2 cfg4.N = biasAdd (V c main_v83) (V c main_v31) :=
  (dat4 V c).arrAt_eq_of_cover 2 (biasAdd (V c main_v83) (V c main_v31)) (fun t _ => flushed4 V c t) cover4

end Cert.KernelIdeal.RegVal

end
-- ==== Proof.Forward.lean ====
/-
  The four-layer graph convolution as ONE function of the ten argument arrays.

  With `s`, `d` the source and destination lists read off the edge array and `n` the edges' normalisation, a layer
  takes activations `H` to `aggregate (H · W) s d n + b`; the first three layers are followed by a clamp at zero. Both
  programs compute this function: the kernel program fuses each layer's bias and clamp into the next layer's product,
  the reference applies them where they are written.
-/
import proofs.«113716_j32942399160406_1_alg».proof.Proof.Region0
import proofs.«113716_j32942399160406_1_alg».proof.Proof.Layer
import proofs.«113716_j32942399160406_1_alg».proof.Proof.HostShared

noncomputable section

namespace Cert.KernelIdeal.RegVal

open Cert.KernelIdeal Idealize.ShloMosaic Idealize.ShloMosaic.TcCoe Idealize.SL.Sem

variable [Cert.KernelIdeal.Facts]

/-- The program's result as a function of its ten arguments. -/
def gcnForward (x : (⟨S50000x128, .f32⟩ : BufTy).Contents (Elt Ideal)) (e : (⟨S2x1600000, .i32⟩ : BufTy).Contents (Elt Ideal))
    (w1 : (⟨S128x64, .f32⟩ : BufTy).Contents (Elt Ideal)) (b1 : (⟨S64, .f32⟩ : BufTy).Contents (Elt Ideal))
    (w2 : (⟨S64x64, .f32⟩ : BufTy).Contents (Elt Ideal)) (b2 : (⟨S64, .f32⟩ : BufTy).Contents (Elt Ideal))
    (w3 : (⟨S64x64, .f32⟩ : BufTy).Contents (Elt Ideal)) (b3 : (⟨S64, .f32⟩ : BufTy).Contents (Elt Ideal))
    (w4 : (⟨S64x64, .f32⟩ : BufTy).Contents (Elt Ideal)) (b4 : (⟨S64, .f32⟩ : BufTy).Contents (Elt Ideal)) :
    (⟨S50000x64, .f32⟩ : BufTy).Contents (Elt Ideal) :=
  biasAdd
    (aggregate
      (layer64
        (aggregate
          (layer64
            (aggregate
              (layer64
                (aggregate (prod128 x w1) (srcOf e) (dstOf e) (normOf (srcOf e) (dstOf e)))
                (biasRow b1) w2)
              (srcOf e) (dstOf e) (normOf (srcOf e) (dstOf e)))
            (biasRow b2) w3)
          (srcOf e) (dstOf e) (normOf (srcOf e) (dstOf e)))
        (biasRow b3) w4)
      (srcOf e) (dstOf e) (normOf (srcOf e) (dstOf e)))
    (biasRow b4)

end Cert.KernelIdeal.RegVal

end
-- ==== Proof.HostChain.lean ====
/-
  The buffers that later segments read and no segment in between writes: the two node lists, the normalisation, the
  bias rows and the weights keep, at every later segment boundary, what the first stretch of host operations left.
  A region leaves every buffer other than its own arrays as it found it; a host stretch leaves every buffer it does not
  write. With those in hand the run's values follow segment by segment: a region's output array is its whole-array
  function of the arrays it found, a host stretch's aggregation is the shared function of the projection before it,
  and the last region's output is the four-layer function of the launch contents.
-/
import proofs.«113716_j32942399160406_1_alg».proof.Proof.HostChain0
import proofs.«113716_j32942399160406_1_alg».proof.Proof.Region0
import proofs.«113716_j32942399160406_1_alg».proof.Proof.Region1
import proofs.«113716_j32942399160406_1_alg».proof.Proof.Region2
import proofs.«113716_j32942399160406_1_alg».proof.Proof.Region3
import proofs.«113716_j32942399160406_1_alg».proof.Proof.Region4
import proofs.«113716_j32942399160406_1_alg».proof.Proof.Forward

noncomputable section

set_option maxRecDepth 16384

namespace Cert.KernelIdeal.RegVal

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem keep2_main_v3 : W2 (F := Ideal) m ρ c (Proc.devRef .tc main_v3) = srcOf (m ((c : Thread nD τ).loc main_arg1)) :=
  (W2_of_ne m ρ c main_v3 (by decide)).trans (first_src m ρ c)

theorem keep2_main_v6 : W2 (F := Ideal) m ρ c (Proc.devRef .tc main_v6) = dstOf (m ((c : Thread nD τ).loc main_arg1)) :=
  (W2_of_ne m ρ c main_v6 (by decide)).trans (first_dst m ρ c)

theorem keep2_main_v27 : W2 (F := Ideal) m ρ c (Proc.devRef .tc main_v27) = normOf (srcOf (m ((c : Thread nD τ).loc main_arg1))) (dstOf (m ((c : Thread nD τ).loc main_arg1))) :=
  (W2_of_ne m ρ c main_v27 (by decide)).trans (first_norm m ρ c)

theorem keep2_main_v28 : W2 (F := Ideal) m ρ c (Proc.devRef .tc main_v28) = biasRow (m ((c : Thread nD τ).loc main_arg3)) :=
  (W2_of_ne m ρ c main_v28 (by decide)).trans (first_main_v28 m ρ c)

theorem keep2_main_v29 : W2 (F := Ideal) m ρ c (Proc.devRef .tc main_v29) = biasRow (m ((c : Thread nD τ).loc main_arg5)) :=
  (W2_of_ne m ρ c main_v29 (by decide)).trans (first_main_v29 m ρ c)

theorem keep2_main_v30 : W2 (F := Ideal) m ρ c (Proc.devRef .tc main_v30) = biasRow (m ((c : Thread nD τ).loc main_arg7)) :=
  (W2_of_ne m ρ c main_v30 (by decide)).trans (first_main_v30 m ρ c)

theorem keep2_main_v31 : W2 (F := Ideal) m ρ c (Proc.devRef .tc main_v31) = biasRow (m ((c : Thread nD τ).loc main_arg9)) :=
  (W2_of_ne m ρ c main_v31 (by decide)).trans (first_main_v31 m ρ c)

theorem keep2_main_arg4 : W2 (F := Ideal) m ρ c (Proc.devRef .tc main_arg4) = m ((c : Thread nD τ).loc main_arg4) :=
  (W2_of_ne m ρ c main_arg4 (by decide)).trans (first_main_arg4 m ρ c)

theorem keep2_main_arg6 : W2 (F := Ideal) m ρ c (Proc.devRef .tc main_arg6) = m ((c : Thread nD τ).loc main_arg6) :=
  (W2_of_ne m ρ c main_arg6 (by decide)).trans (first_main_arg6 m ρ c)

theorem keep2_main_arg8 : W2 (F := Ideal) m ρ c (Proc.devRef .tc main_arg8) = m ((c : Thread nD τ).loc main_arg8) :=
  (W2_of_ne m ρ c main_arg8 (by decide)).trans (first_main_arg8 m ρ c)

theorem keep3_main_v3 : W3 (F := Ideal) m ρ c (Proc.devRef .tc main_v3) = srcOf (m ((c : Thread nD τ).loc main_arg1)) :=
  (show W3 (F := Ideal) m ρ c (Proc.devRef .tc main_v3) = W2 m ρ c (Proc.devRef .tc main_v3) from by
    show StableHlo.after hostOps1 (W2 m ρ c) (Proc.devRef .tc main_v3) = W2 m ρ c (Proc.devRef .tc main_v3)
    unfold hostOps1
    after_results_simp).trans (keep2_main_v3 m ρ c)

theorem keep3_main_v6 : W3 (F := Ideal) m ρ c (Proc.devRef .tc main_v6) = dstOf (m ((c : Thread nD τ).loc main_arg1)) :=
  (show W3 (F := Ideal) m ρ c (Proc.devRef .tc main_v6) = W2 m ρ c (Proc.devRef .tc main_v6) from by
    show StableHlo.after hostOps1 (W2 m ρ c) (Proc.devRef .tc main_v6) = W2 m ρ c (Proc.devRef .tc main_v6)
    unfold hostOps1
    after_results_simp).trans (keep2_main_v6 m ρ c)

theorem keep3_main_v27 : W3 (F := Ideal) m ρ c (Proc.devRef .tc main_v27) = normOf (srcOf (m ((c : Thread nD τ).loc main_arg1))) (dstOf (m ((c : Thread nD τ).loc main_arg1))) :=
  (show W3 (F := Ideal) m ρ c (Proc.devRef .tc main_v27) = W2 m ρ c (Proc.devRef .tc main_v27) from by
    show StableHlo.after hostOps1 (W2 m ρ c) (Proc.devRef .tc main_v27) = W2 m ρ c (Proc.devRef .tc main_v27)
    unfold hostOps1
    after_results_simp).trans (keep2_main_v27 m ρ c)

theorem keep3_main_v28 : W3 (F := Ideal) m ρ c (Proc.devRef .tc main_v28) = biasRow (m ((c : Thread nD τ).loc main_arg3)) :=
  (show W3 (F := Ideal) m ρ c (Proc.devRef .tc main_v28) = W2 m ρ c (Proc.devRef .tc main_v28) from by
    show StableHlo.after hostOps1 (W2 m ρ c) (Proc.devRef .tc main_v28) = W2 m ρ c (Proc.devRef .tc main_v28)
    unfold hostOps1
    after_results_simp).trans (keep2_main_v28 m ρ c)

theorem keep3_main_v29 : W3 (F := Ideal) m ρ c (Proc.devRef .tc main_v29) = biasRow (m ((c : Thread nD τ).loc main_arg5)) :=
  (show W3 (F := Ideal) m ρ c (Proc.devRef .tc main_v29) = W2 m ρ c (Proc.devRef .tc main_v29) from by
    show StableHlo.after hostOps1 (W2 m ρ c) (Proc.devRef .tc main_v29) = W2 m ρ c (Proc.devRef .tc main_v29)
    unfold hostOps1
    after_results_simp).trans (keep2_main_v29 m ρ c)

theorem keep3_main_v30 : W3 (F := Ideal) m ρ c (Proc.devRef .tc main_v30) = biasRow (m ((c : Thread nD τ).loc main_arg7)) :=
  (show W3 (F := Ideal) m ρ c (Proc.devRef .tc main_v30) = W2 m ρ c (Proc.devRef .tc main_v30) from by
    show StableHlo.after hostOps1 (W2 m ρ c) (Proc.devRef .tc main_v30) = W2 m ρ c (Proc.devRef .tc main_v30)
    unfold hostOps1
    after_results_simp).trans (keep2_main_v30 m ρ c)

theorem keep3_main_v31 : W3 (F := Ideal) m ρ c (Proc.devRef .tc main_v31) = biasRow (m ((c : Thread nD τ).loc main_arg9)) :=
  (show W3 (F := Ideal) m ρ c (Proc.devRef .tc main_v31) = W2 m ρ c (Proc.devRef .tc main_v31) from by
    show StableHlo.after hostOps1 (W2 m ρ c) (Proc.devRef .tc main_v31) = W2 m ρ c (Proc.devRef .tc main_v31)
    unfold hostOps1
    after_results_simp).trans (keep2_main_v31 m ρ c)

theorem keep3_main_arg4 : W3 (F := Ideal) m ρ c (Proc.devRef .tc main_arg4) = m ((c : Thread nD τ).loc main_arg4) :=
  (show W3 (F := Ideal) m ρ c (Proc.devRef .tc main_arg4) = W2 m ρ c (Proc.devRef .tc main_arg4) from by
    show StableHlo.after hostOps1 (W2 m ρ c) (Proc.devRef .tc main_arg4) = W2 m ρ c (Proc.devRef .tc main_arg4)
    unfold hostOps1
    after_results_simp).trans (keep2_main_arg4 m ρ c)

theorem keep3_main_arg6 : W3 (F := Ideal) m ρ c (Proc.devRef .tc main_arg6) = m ((c : Thread nD τ).loc main_arg6) :=
  (show W3 (F := Ideal) m ρ c (Proc.devRef .tc main_arg6) = W2 m ρ c (Proc.devRef .tc main_arg6) from by
    show StableHlo.after hostOps1 (W2 m ρ c) (Proc.devRef .tc main_arg6) = W2 m ρ c (Proc.devRef .tc main_arg6)
    unfold hostOps1
    after_results_simp).trans (keep2_main_arg6 m ρ c)

theorem keep3_main_arg8 : W3 (F := Ideal) m ρ c (Proc.devRef .tc main_arg8) = m ((c : Thread nD τ).loc main_arg8) :=
  (show W3 (F := Ideal) m ρ c (Proc.devRef .tc main_arg8) = W2 m ρ c (Proc.devRef .tc main_arg8) from by
    show StableHlo.after hostOps1 (W2 m ρ c) (Proc.devRef .tc main_arg8) = W2 m ρ c (Proc.devRef .tc main_arg8)
    unfold hostOps1
    after_results_simp).trans (keep2_main_arg8 m ρ c)

theorem keep4_main_v3 : W4 (F := Ideal) m ρ c (Proc.devRef .tc main_v3) = srcOf (m ((c : Thread nD τ).loc main_arg1)) :=
  (W4_of_ne m ρ c main_v3 (by decide)).trans (keep3_main_v3 m ρ c)

theorem keep4_main_v6 : W4 (F := Ideal) m ρ c (Proc.devRef .tc main_v6) = dstOf (m ((c : Thread nD τ).loc main_arg1)) :=
  (W4_of_ne m ρ c main_v6 (by decide)).trans (keep3_main_v6 m ρ c)

theorem keep4_main_v27 : W4 (F := Ideal) m ρ c (Proc.devRef .tc main_v27) = normOf (srcOf (m ((c : Thread nD τ).loc main_arg1))) (dstOf (m ((c : Thread nD τ).loc main_arg1))) :=
  (W4_of_ne m ρ c main_v27 (by decide)).trans (keep3_main_v27 m ρ c)

theorem keep4_main_v29 : W4 (F := Ideal) m ρ c (Proc.devRef .tc main_v29) = biasRow (m ((c : Thread nD τ).loc main_arg5)) :=
  (W4_of_ne m ρ c main_v29 (by decide)).trans (keep3_main_v29 m ρ c)

theorem keep4_main_v30 : W4 (F := Ideal) m ρ c (Proc.devRef .tc main_v30) = biasRow (m ((c : Thread nD τ).loc main_arg7)) :=
  (W4_of_ne m ρ c main_v30 (by decide)).trans (keep3_main_v30 m ρ c)

theorem keep4_main_v31 : W4 (F := Ideal) m ρ c (Proc.devRef .tc main_v31) = biasRow (m ((c : Thread nD τ).loc main_arg9)) :=
  (W4_of_ne m ρ c main_v31 (by decide)).trans (keep3_main_v31 m ρ c)

theorem keep4_main_arg6 : W4 (F := Ideal) m ρ c (Proc.devRef .tc main_arg6) = m ((c : Thread nD τ).loc main_arg6) :=
  (W4_of_ne m ρ c main_arg6 (by decide)).trans (keep3_main_arg6 m ρ c)

theorem keep4_main_arg8 : W4 (F := Ideal) m ρ c (Proc.devRef .tc main_arg8) = m ((c : Thread nD τ).loc main_arg8) :=
  (W4_of_ne m ρ c main_arg8 (by decide)).trans (keep3_main_arg8 m ρ c)

theorem keep5_main_v3 : W5 (F := Ideal) m ρ c (Proc.devRef .tc main_v3) = srcOf (m ((c : Thread nD τ).loc main_arg1)) :=
  (show W5 (F := Ideal) m ρ c (Proc.devRef .tc main_v3) = W4 m ρ c (Proc.devRef .tc main_v3) from by
    show StableHlo.after hostOps2 (W4 m ρ c) (Proc.devRef .tc main_v3) = W4 m ρ c (Proc.devRef .tc main_v3)
    unfold hostOps2
    after_results_simp).trans (keep4_main_v3 m ρ c)

theorem keep5_main_v6 : W5 (F := Ideal) m ρ c (Proc.devRef .tc main_v6) = dstOf (m ((c : Thread nD τ).loc main_arg1)) :=
  (show W5 (F := Ideal) m ρ c (Proc.devRef .tc main_v6) = W4 m ρ c (Proc.devRef .tc main_v6) from by
    show StableHlo.after hostOps2 (W4 m ρ c) (Proc.devRef .tc main_v6) = W4 m ρ c (Proc.devRef .tc main_v6)
    unfold hostOps2
    after_results_simp).trans (keep4_main_v6 m ρ c)

theorem keep5_main_v27 : W5 (F := Ideal) m ρ c (Proc.devRef .tc main_v27) = normOf (srcOf (m ((c : Thread nD τ).loc main_arg1))) (dstOf (m ((c : Thread nD τ).loc main_arg1))) :=
  (show W5 (F := Ideal) m ρ c (Proc.devRef .tc main_v27) = W4 m ρ c (Proc.devRef .tc main_v27) from by
    show StableHlo.after hostOps2 (W4 m ρ c) (Proc.devRef .tc main_v27) = W4 m ρ c (Proc.devRef .tc main_v27)
    unfold hostOps2
    after_results_simp).trans (keep4_main_v27 m ρ c)

theorem keep5_main_v29 : W5 (F := Ideal) m ρ c (Proc.devRef .tc main_v29) = biasRow (m ((c : Thread nD τ).loc main_arg5)) :=
  (show W5 (F := Ideal) m ρ c (Proc.devRef .tc main_v29) = W4 m ρ c (Proc.devRef .tc main_v29) from by
    show StableHlo.after hostOps2 (W4 m ρ c) (Proc.devRef .tc main_v29) = W4 m ρ c (Proc.devRef .tc main_v29)
    unfold hostOps2
    after_results_simp).trans (keep4_main_v29 m ρ c)

theorem keep5_main_v30 : W5 (F := Ideal) m ρ c (Proc.devRef .tc main_v30) = biasRow (m ((c : Thread nD τ).loc main_arg7)) :=
  (show W5 (F := Ideal) m ρ c (Proc.devRef .tc main_v30) = W4 m ρ c (Proc.devRef .tc main_v30) from by
    show StableHlo.after hostOps2 (W4 m ρ c) (Proc.devRef .tc main_v30) = W4 m ρ c (Proc.devRef .tc main_v30)
    unfold hostOps2
    after_results_simp).trans (keep4_main_v30 m ρ c)

theorem keep5_main_v31 : W5 (F := Ideal) m ρ c (Proc.devRef .tc main_v31) = biasRow (m ((c : Thread nD τ).loc main_arg9)) :=
  (show W5 (F := Ideal) m ρ c (Proc.devRef .tc main_v31) = W4 m ρ c (Proc.devRef .tc main_v31) from by
    show StableHlo.after hostOps2 (W4 m ρ c) (Proc.devRef .tc main_v31) = W4 m ρ c (Proc.devRef .tc main_v31)
    unfold hostOps2
    after_results_simp).trans (keep4_main_v31 m ρ c)

theorem keep5_main_arg6 : W5 (F := Ideal) m ρ c (Proc.devRef .tc main_arg6) = m ((c : Thread nD τ).loc main_arg6) :=
  (show W5 (F := Ideal) m ρ c (Proc.devRef .tc main_arg6) = W4 m ρ c (Proc.devRef .tc main_arg6) from by
    show StableHlo.after hostOps2 (W4 m ρ c) (Proc.devRef .tc main_arg6) = W4 m ρ c (Proc.devRef .tc main_arg6)
    unfold hostOps2
    after_results_simp).trans (keep4_main_arg6 m ρ c)

theorem keep5_main_arg8 : W5 (F := Ideal) m ρ c (Proc.devRef .tc main_arg8) = m ((c : Thread nD τ).loc main_arg8) :=
  (show W5 (F := Ideal) m ρ c (Proc.devRef .tc main_arg8) = W4 m ρ c (Proc.devRef .tc main_arg8) from by
    show StableHlo.after hostOps2 (W4 m ρ c) (Proc.devRef .tc main_arg8) = W4 m ρ c (Proc.devRef .tc main_arg8)
    unfold hostOps2
    after_results_simp).trans (keep4_main_arg8 m ρ c)

theorem keep6_main_v3 : W6 (F := Ideal) m ρ c (Proc.devRef .tc main_v3) = srcOf (m ((c : Thread nD τ).loc main_arg1)) :=
  (W6_of_ne m ρ c main_v3 (by decide)).trans (keep5_main_v3 m ρ c)

theorem keep6_main_v6 : W6 (F := Ideal) m ρ c (Proc.devRef .tc main_v6) = dstOf (m ((c : Thread nD τ).loc main_arg1)) :=
  (W6_of_ne m ρ c main_v6 (by decide)).trans (keep5_main_v6 m ρ c)

theorem keep6_main_v27 : W6 (F := Ideal) m ρ c (Proc.devRef .tc main_v27) = normOf (srcOf (m ((c : Thread nD τ).loc main_arg1))) (dstOf (m ((c : Thread nD τ).loc main_arg1))) :=
  (W6_of_ne m ρ c main_v27 (by decide)).trans (keep5_main_v27 m ρ c)

theorem keep6_main_v30 : W6 (F := Ideal) m ρ c (Proc.devRef .tc main_v30) = biasRow (m ((c : Thread nD τ).loc main_arg7)) :=
  (W6_of_ne m ρ c main_v30 (by decide)).trans (keep5_main_v30 m ρ c)

theorem keep6_main_v31 : W6 (F := Ideal) m ρ c (Proc.devRef .tc main_v31) = biasRow (m ((c : Thread nD τ).loc main_arg9)) :=
  (W6_of_ne m ρ c main_v31 (by decide)).trans (keep5_main_v31 m ρ c)

theorem keep6_main_arg8 : W6 (F := Ideal) m ρ c (Proc.devRef .tc main_arg8) = m ((c : Thread nD τ).loc main_arg8) :=
  (W6_of_ne m ρ c main_arg8 (by decide)).trans (keep5_main_arg8 m ρ c)

theorem keep7_main_v3 : W7 (F := Ideal) m ρ c (Proc.devRef .tc main_v3) = srcOf (m ((c : Thread nD τ).loc main_arg1)) :=
  (show W7 (F := Ideal) m ρ c (Proc.devRef .tc main_v3) = W6 m ρ c (Proc.devRef .tc main_v3) from by
    show StableHlo.after hostOps3 (W6 m ρ c) (Proc.devRef .tc main_v3) = W6 m ρ c (Proc.devRef .tc main_v3)
    unfold hostOps3
    after_results_simp).trans (keep6_main_v3 m ρ c)

theorem keep7_main_v6 : W7 (F := Ideal) m ρ c (Proc.devRef .tc main_v6) = dstOf (m ((c : Thread nD τ).loc main_arg1)) :=
  (show W7 (F := Ideal) m ρ c (Proc.devRef .tc main_v6) = W6 m ρ c (Proc.devRef .tc main_v6) from by
    show StableHlo.after hostOps3 (W6 m ρ c) (Proc.devRef .tc main_v6) = W6 m ρ c (Proc.devRef .tc main_v6)
    unfold hostOps3
    after_results_simp).trans (keep6_main_v6 m ρ c)

theorem keep7_main_v27 : W7 (F := Ideal) m ρ c (Proc.devRef .tc main_v27) = normOf (srcOf (m ((c : Thread nD τ).loc main_arg1))) (dstOf (m ((c : Thread nD τ).loc main_arg1))) :=
  (show W7 (F := Ideal) m ρ c (Proc.devRef .tc main_v27) = W6 m ρ c (Proc.devRef .tc main_v27) from by
    show StableHlo.after hostOps3 (W6 m ρ c) (Proc.devRef .tc main_v27) = W6 m ρ c (Proc.devRef .tc main_v27)
    unfold hostOps3
    after_results_simp).trans (keep6_main_v27 m ρ c)

theorem keep7_main_v30 : W7 (F := Ideal) m ρ c (Proc.devRef .tc main_v30) = biasRow (m ((c : Thread nD τ).loc main_arg7)) :=
  (show W7 (F := Ideal) m ρ c (Proc.devRef .tc main_v30) = W6 m ρ c (Proc.devRef .tc main_v30) from by
    show StableHlo.after hostOps3 (W6 m ρ c) (Proc.devRef .tc main_v30) = W6 m ρ c (Proc.devRef .tc main_v30)
    unfold hostOps3
    after_results_simp).trans (keep6_main_v30 m ρ c)

theorem keep7_main_v31 : W7 (F := Ideal) m ρ c (Proc.devRef .tc main_v31) = biasRow (m ((c : Thread nD τ).loc main_arg9)) :=
  (show W7 (F := Ideal) m ρ c (Proc.devRef .tc main_v31) = W6 m ρ c (Proc.devRef .tc main_v31) from by
    show StableHlo.after hostOps3 (W6 m ρ c) (Proc.devRef .tc main_v31) = W6 m ρ c (Proc.devRef .tc main_v31)
    unfold hostOps3
    after_results_simp).trans (keep6_main_v31 m ρ c)

theorem keep7_main_arg8 : W7 (F := Ideal) m ρ c (Proc.devRef .tc main_arg8) = m ((c : Thread nD τ).loc main_arg8) :=
  (show W7 (F := Ideal) m ρ c (Proc.devRef .tc main_arg8) = W6 m ρ c (Proc.devRef .tc main_arg8) from by
    show StableHlo.after hostOps3 (W6 m ρ c) (Proc.devRef .tc main_arg8) = W6 m ρ c (Proc.devRef .tc main_arg8)
    unfold hostOps3
    after_results_simp).trans (keep6_main_arg8 m ρ c)

theorem keep8_main_v3 : W8 (F := Ideal) m ρ c (Proc.devRef .tc main_v3) = srcOf (m ((c : Thread nD τ).loc main_arg1)) :=
  (W8_of_ne m ρ c main_v3 (by decide)).trans (keep7_main_v3 m ρ c)

theorem keep8_main_v6 : W8 (F := Ideal) m ρ c (Proc.devRef .tc main_v6) = dstOf (m ((c : Thread nD τ).loc main_arg1)) :=
  (W8_of_ne m ρ c main_v6 (by decide)).trans (keep7_main_v6 m ρ c)

theorem keep8_main_v27 : W8 (F := Ideal) m ρ c (Proc.devRef .tc main_v27) = normOf (srcOf (m ((c : Thread nD τ).loc main_arg1))) (dstOf (m ((c : Thread nD τ).loc main_arg1))) :=
  (W8_of_ne m ρ c main_v27 (by decide)).trans (keep7_main_v27 m ρ c)

theorem keep8_main_v31 : W8 (F := Ideal) m ρ c (Proc.devRef .tc main_v31) = biasRow (m ((c : Thread nD τ).loc main_arg9)) :=
  (W8_of_ne m ρ c main_v31 (by decide)).trans (keep7_main_v31 m ρ c)

theorem keep9_main_v31 : W9 (F := Ideal) m ρ c (Proc.devRef .tc main_v31) = biasRow (m ((c : Thread nD τ).loc main_arg9)) :=
  (show W9 (F := Ideal) m ρ c (Proc.devRef .tc main_v31) = W8 m ρ c (Proc.devRef .tc main_v31) from by
    show StableHlo.after hostOps4 (W8 m ρ c) (Proc.devRef .tc main_v31) = W8 m ρ c (Proc.devRef .tc main_v31)
    unfold hostOps4
    after_results_simp).trans (keep8_main_v31 m ρ c)

/-! ## The values: each region's output and each aggregation, from the launch contents -/

theorem aggregate_congr {P P' : (⟨S50000x64, .f32⟩ : BufTy).Contents (Elt Ideal)} {s s' d d' : (⟨S1650000, .i32⟩ : BufTy).Contents (Elt Ideal)}
    {n n' : (⟨S1650000x1, .f32⟩ : BufTy).Contents (Elt Ideal)} (hP : P = P') (hs : s = s') (hd : d = d') (hn : n = n') :
    aggregate P s d n = aggregate P' s' d' n' := by subst hP hs hd hn; rfl
theorem layer64_congr {a a' : S50000x64.Idx → Elt Ideal .f32} {b b' : S1x64.Idx → Elt Ideal .f32} {w w' : S64x64.Idx → Elt Ideal .f32}
    (ha : a = a') (hb : b = b') (hw : w = w') : layer64 a b w = layer64 a' b' w' := by subst ha hb hw; rfl
theorem biasAdd_congr {a a' : S50000x64.Idx → Elt Ideal .f32} {b b' : S1x64.Idx → Elt Ideal .f32}
    (ha : a = a') (hb : b = b') : biasAdd a b = biasAdd a' b' := by subst ha hb; rfl
theorem prod128_congr {x x' : S50000x128.Idx → EReal} {w w' : S128x64.Idx → EReal}
    (hx : x = x') (hw : w = w') : prod128 x w = prod128 x' w' := by subst hx hw; rfl

/-- Region 0 leaves the first projection. -/
theorem value_p1 : W2 (F := Ideal) m ρ c (Proc.devRef .tc main_v32) = prod128 (m ((c : Thread nD τ).loc main_arg0)) (m ((c : Thread nD τ).loc main_arg2)) :=
  (W2_arr m ρ c 2).trans ((final0 (V1 m ρ) c).trans (prod128_congr (first_main_arg0 m ρ c) (first_main_arg2 m ρ c)))

/-- The host stretch after it aggregates that projection over the graph. -/
theorem value_a1 : W3 (F := Ideal) m ρ c (Proc.devRef .tc main_v44) = aggregate (prod128 (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1)))) :=
  (show W3 (F := Ideal) m ρ c (Proc.devRef .tc main_v44)
      = aggregate (W2 m ρ c (Proc.devRef .tc main_v32)) (W2 m ρ c (Proc.devRef .tc main_v3)) (W2 m ρ c (Proc.devRef .tc main_v6)) (W2 m ρ c (Proc.devRef .tc main_v27)) from by
    show StableHlo.after hostOps1 (W2 m ρ c) (Proc.devRef .tc main_v44) = _
    unfold hostOps1
    after_results_simp
    rfl).trans
  (aggregate_congr (value_p1 m ρ c) (keep2_main_v3 m ρ c) (keep2_main_v6 m ρ c) (keep2_main_v27 m ρ c))

/-- Region 1 leaves the second projection. -/
theorem value_p2 : W4 (F := Ideal) m ρ c (Proc.devRef .tc main_v45) = layer64 (aggregate (prod128 (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1))))) (biasRow (m ((c : Thread nD τ).loc main_arg3))) (m ((c : Thread nD τ).loc main_arg4)) :=
  (W4_arr m ρ c 3).trans ((final1 (V3 m ρ) c).trans
    (layer64_congr (value_a1 m ρ c) (keep3_main_v28 m ρ c) (keep3_main_arg4 m ρ c)))

/-- The host stretch after it aggregates that projection over the graph. -/
theorem value_a2 : W5 (F := Ideal) m ρ c (Proc.devRef .tc main_v57) = aggregate (layer64 (aggregate (prod128 (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1))))) (biasRow (m ((c : Thread nD τ).loc main_arg3))) (m ((c : Thread nD τ).loc main_arg4))) (srcOf (m ((c : Thread nD τ).loc main_arg1))) (dstOf (m ((c : Thread nD τ).loc main_arg1))) (normOf (srcOf (m ((c : Thread nD τ).loc main_arg1))) (dstOf (m ((c : Thread nD τ).loc main_arg1)))) :=
  (show W5 (F := Ideal) m ρ c (Proc.devRef .tc main_v57)
      = aggregate (W4 m ρ c (Proc.devRef .tc main_v45)) (W4 m ρ c (Proc.devRef .tc main_v3)) (W4 m ρ c (Proc.devRef .tc main_v6)) (W4 m ρ c (Proc.devRef .tc main_v27)) from by
    show StableHlo.after hostOps2 (W4 m ρ c) (Proc.devRef .tc main_v57) = _
    unfold hostOps2
    after_results_simp
    rfl).trans
  (aggregate_congr (value_p2 m ρ c) (keep4_main_v3 m ρ c) (keep4_main_v6 m ρ c) (keep4_main_v27 m ρ c))

/-- Region 2 leaves the third projection. -/
theorem value_p3 : W6 (F := Ideal) m ρ c (Proc.devRef .tc main_v58) = layer64 (aggregate (layer64 (aggregate (prod128 (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1))))) (biasRow (m ((c : Thread nD τ).loc main_arg3))) (m ((c : Thread nD τ).loc main_arg4))) (srcOf (m ((c : Thread nD τ).loc main_arg1))) (dstOf (m ((c : Thread nD τ).loc main_arg1))) (normOf (srcOf (m ((c : Thread nD τ).loc main_arg1))) (dstOf (m ((c : Thread nD τ).loc main_arg1))))) (biasRow (m ((c : Thread nD τ).loc main_arg5))) (m ((c : Thread nD τ).loc main_arg6)) :=
  (W6_arr m ρ c 3).trans ((final2 (V5 m ρ) c).trans
    (layer64_congr (value_a2 m ρ c) (keep5_main_v29 m ρ c) (keep5_main_arg6 m ρ c)))

/-- The host stretch after it aggregates that projection over the graph. -/
theorem value_a3 : W7 (F := Ideal) m ρ c (Proc.devRef .tc main_v70) = aggregate (layer64 (aggregate (layer64 (aggregate (prod128 (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1))))) (biasRow (m ((c : Thread nD τ).loc main_arg3))) (m ((c : Thread nD τ).loc main_arg4))) (srcOf (m ((c : Thread nD τ).loc main_arg1))) (dstOf (m ((c : Thread nD τ).loc main_arg1))) (normOf (srcOf (m ((c : Thread nD τ).loc main_arg1))) (dstOf (m ((c : Thread nD τ).loc main_arg1))))) (biasRow (m ((c : Thread nD τ).loc main_arg5))) (m ((c : Thread nD τ).loc main_arg6))) (srcOf (m ((c : Thread nD τ).loc main_arg1))) (dstOf (m ((c : Thread nD τ).loc main_arg1))) (normOf (srcOf (m ((c : Thread nD τ).loc main_arg1))) (dstOf (m ((c : Thread nD τ).loc main_arg1)))) :=
  (show W7 (F := Ideal) m ρ c (Proc.devRef .tc main_v70)
      = aggregate (W6 m ρ c (Proc.devRef .tc main_v58)) (W6 m ρ c (Proc.devRef .tc main_v3)) (W6 m ρ c (Proc.devRef .tc main_v6)) (W6 m ρ c (Proc.devRef .tc main_v27)) from by
    show StableHlo.after hostOps3 (W6 m ρ c) (Proc.devRef .tc main_v70) = _
    unfold hostOps3
    after_results_simp
    rfl).trans
  (aggregate_congr (value_p3 m ρ c) (keep6_main_v3 m ρ c) (keep6_main_v6 m ρ c) (keep6_main_v27 m ρ c))

/-- Region 3 leaves the fourth projection. -/
theorem value_p4 : W8 (F := Ideal) m ρ c (Proc.devRef .tc main_v71) = layer64 (aggregate (layer64 (aggregate (layer64 (aggregate (prod128 (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1))))) (biasRow (m ((c : Thread nD τ).loc main_arg3))) (m ((c : Thread nD τ).loc main_arg4))) (srcOf (m ((c : Thread nD τ).loc main_arg1))) (dstOf (m ((c : Thread nD τ).loc main_arg1))) (normOf (srcOf (m ((c : Thread nD τ).loc main_arg1))) (dstOf (m ((c : Thread nD τ).loc main_arg1))))) (biasRow (m ((c : Thread nD τ).loc main_arg5))) (m ((c : Thread nD τ).loc main_arg6))) (srcOf (m ((c : Thread nD τ).loc main_arg1))) (dstOf (m ((c : Thread nD τ).loc main_arg1))) (normOf (srcOf (m ((c : Thread nD τ).loc main_arg1))) (dstOf (m ((c : Thread nD τ).loc main_arg1))))) (biasRow (m ((c : Thread nD τ).loc main_arg7))) (m ((c : Thread nD τ).loc main_arg8)) :=
  (W8_arr m ρ c 3).trans ((final3 (V7 m ρ) c).trans
    (layer64_congr (value_a3 m ρ c) (keep7_main_v30 m ρ c) (keep7_main_arg8 m ρ c)))

/-- The host stretch after it aggregates that projection over the graph. -/
theorem value_a4 : W9 (F := Ideal) m ρ c (Proc.devRef .tc main_v83) = aggregate (layer64 (aggregate (layer64 (aggregate (layer64 (aggregate (prod128 (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1))))) (biasRow (m ((c : Thread nD τ).loc main_arg3))) (m ((c : Thread nD τ).loc main_arg4))) (srcOf (m ((c : Thread nD τ).loc main_arg1))) (dstOf (m ((c : Thread nD τ).loc main_arg1))) (normOf (srcOf (m ((c : Thread nD τ).loc main_arg1))) (dstOf (m ((c : Thread nD τ).loc main_arg1))))) (biasRow (m ((c : Thread nD τ).loc main_arg5))) (m ((c : Thread nD τ).loc main_arg6))) (srcOf (m ((c : Thread nD τ).loc main_arg1))) (dstOf (m ((c : Thread nD τ).loc main_arg1))) (normOf (srcOf (m ((c : Thread nD τ).loc main_arg1))) (dstOf (m ((c : Thread nD τ).loc main_arg1))))) (biasRow (m ((c : Thread nD τ).loc main_arg7))) (m ((c : Thread nD τ).loc main_arg8))) (srcOf (m ((c : Thread nD τ).loc main_arg1))) (dstOf (m ((c : Thread nD τ).loc main_arg1))) (normOf (srcOf (m ((c : Thread nD τ).loc main_arg1))) (dstOf (m ((c : Thread nD τ).loc main_arg1)))) :=
  (show W9 (F := Ideal) m ρ c (Proc.devRef .tc main_v83)
      = aggregate (W8 m ρ c (Proc.devRef .tc main_v71)) (W8 m ρ c (Proc.devRef .tc main_v3)) (W8 m ρ c (Proc.devRef .tc main_v6)) (W8 m ρ c (Proc.devRef .tc main_v27)) from by
    show StableHlo.after hostOps4 (W8 m ρ c) (Proc.devRef .tc main_v83) = _
    unfold hostOps4
    after_results_simp
    rfl).trans
  (aggregate_congr (value_p4 m ρ c) (keep8_main_v3 m ρ c) (keep8_main_v6 m ρ c) (keep8_main_v27 m ρ c))

/-- The last region adds the last bias: the result buffer ends at the four-layer function of the launch contents. -/
theorem kernel_value : W10 (F := Ideal) m ρ c (Proc.devRef .tc main_v84)
    = gcnForward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W10_arr m ρ c 2).trans ((final4 (V9 m ρ) c).trans
    (biasAdd_congr (value_a4 m ρ c) (keep9_main_v31 m ρ c)))

end Cert.KernelIdeal.RegVal

end
-- ==== Proof.RefForward.lean ====
/-
  The reference program computes the four-layer graph convolution, stage by stage.

  The reference multiplies the features by the first weight, then for every layer gathers the projected rows by
  source node, scales each gathered row by the edge's normalisation, adds it into the row of its destination node and
  adds the bias; after each of the first three layers it clamps at zero and multiplies by the next weight. Its
  source and destination lists, gather indices, degrees and normalisations are the same host operations as the shared
  graph arithmetic, differing only in which record names the gather, scatter and broadcast dimensions, so each
  aggregation is the shared one by unfolding. A matrix product is read entry by entry as a sum over the contracted
  axis; the clamp is a maximum with a broadcast zero; the bias broadcast over the rows is the bias vector read at the
  column, which is also what the one-row reshape of the bias gives at that column.
-/
import proofs.«113716_j32942399160406_1_alg».proof.Proof.Forward
import proofs.«113716_j32942399160406_1_alg».proof.Proof.Gen.ReferenceIdeal.Read

noncomputable section

namespace Cert.ReferenceIdeal.RefVal

open Cert.ReferenceIdeal Cert.ReferenceIdeal.Read Idealize.ShloMosaic Idealize.ShloMosaic.TcCoe Idealize.SL.Sem
open Cert.KernelIdeal.RegVal (gcnForward prod128 layer64 biasAdd bias64 lrow64 rcol64 lrow128 rcol128 srcOf dstOf wrapIdx degInv normOf aggregate biasRow)

variable [Cert.KernelIdeal.Facts] [Cert.ReferenceIdeal.Facts]

/-- The first projection is the matrix product, entry by entry. -/
theorem prod_eq (x0 : (⟨S50000x128, .f32⟩ : BufTy).Contents (Elt Ideal)) (x2 : (⟨S128x64, .f32⟩ : BufTy).Contents (Elt Ideal)) :
    val_main_v28 (F := Ideal) x0 x2 = prod128 x0 x2 := by
  funext i
  rw [val_main_v28_apply]
  rfl

/-- The source list: the first row of the edge array followed by the self-loops. -/
theorem src_eq (x1 : (⟨S2x1600000, .i32⟩ : BufTy).Contents (Elt Ideal)) : val_main_v3 (F := Ideal) x1 = srcOf x1 := rfl

/-- The destination list: the second row of the edge array followed by the self-loops. -/
theorem dst_eq (x1 : (⟨S2x1600000, .i32⟩ : BufTy).Contents (Elt Ideal)) : val_main_v6 (F := Ideal) x1 = dstOf x1 := rfl

/-- The normalisation column: `deg^(-1/2)` at the source times `deg^(-1/2)` at the destination, per edge. -/
theorem norm_eq (x1 : (⟨S2x1600000, .i32⟩ : BufTy).Contents (Elt Ideal)) :
    val_main_v27 (F := Ideal) x1 = normOf (srcOf x1) (dstOf x1) := by
  set_option maxHeartbeats 400000 in
  rfl

/-- Column `k` of a vector of 64 entries. -/
abbrev col64 (k : Fin 64) : S64.Idx := fun a => match a with
  | ⟨0, _⟩ => ⟨k.val, k.isLt⟩

/-- The one-row reshape of a bias read at column `k` is the bias at `k`. -/
theorem biasRow_apply (b : (⟨S64, .f32⟩ : BufTy).Contents (Elt Ideal)) (k : Fin 64) : biasRow b (bias64 k) = b (col64 k) := by
  unfold biasRow
  exact shapeCast_apply b _ (bias64 k) (col64 k) (by rewrite [Shape.rowMajor_val_two, Shape.rowMajor_val_one]; show k.val = 0 * 64 + k.val; omega)

/-- The first aggregation of the reference is the shared one, applied to the first projection. -/
theorem agg1_eq (x0 : (⟨S50000x128, .f32⟩ : BufTy).Contents (Elt Ideal)) (x1 : (⟨S2x1600000, .i32⟩ : BufTy).Contents (Elt Ideal)) (x2 : (⟨S128x64, .f32⟩ : BufTy).Contents (Elt Ideal)) :
    val_main_v40 (F := Ideal) x0 x1 x2 = aggregate (val_main_v28 (F := Ideal) x0 x2) (srcOf x1) (dstOf x1) (normOf (srcOf x1) (dstOf x1)) := by
  unfold val_main_v40 val_main_v37 val_main_v35
  generalize val_main_v28 (F := Ideal) x0 x2 = P
  set_option maxHeartbeats 400000 in
  rfl

/-- The second aggregation of the reference is the shared one, applied to the second projection. -/
theorem agg2_eq (x0 : (⟨S50000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) :
    val_main_v57 (F := Ideal) x0 x1 x2 x3 x4 = aggregate (val_main_v45 (F := Ideal) x0 x1 x2 x3 x4) (srcOf x1) (dstOf x1) (normOf (srcOf x1) (dstOf x1)) := by
  unfold val_main_v57 val_main_v54 val_main_v52
  generalize val_main_v45 (F := Ideal) x0 x1 x2 x3 x4 = P
  set_option maxHeartbeats 400000 in
  rfl

/-- The third aggregation of the reference is the shared one, applied to the third projection. -/
theorem agg3_eq (x0 : (⟨S50000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) :
    val_main_v74 (F := Ideal) x0 x1 x2 x3 x4 x5 x6 = aggregate (val_main_v62 (F := Ideal) x0 x1 x2 x3 x4 x5 x6) (srcOf x1) (dstOf x1) (normOf (srcOf x1) (dstOf x1)) := by
  unfold val_main_v74 val_main_v71 val_main_v69
  generalize val_main_v62 (F := Ideal) x0 x1 x2 x3 x4 x5 x6 = P
  set_option maxHeartbeats 400000 in
  rfl

/-- The fourth aggregation of the reference is the shared one, applied to the fourth projection. -/
theorem agg4_eq (x0 : (⟨S50000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) :
    val_main_v91 (F := Ideal) x0 x1 x2 x3 x4 x5 x6 x7 x8 = aggregate (val_main_v79 (F := Ideal) x0 x1 x2 x3 x4 x5 x6 x7 x8) (srcOf x1) (dstOf x1) (normOf (srcOf x1) (dstOf x1)) := by
  unfold val_main_v91 val_main_v88 val_main_v86
  generalize val_main_v79 (F := Ideal) x0 x1 x2 x3 x4 x5 x6 x7 x8 = P
  set_option maxHeartbeats 400000 in
  rfl

/-- The first hidden layer: bias added to every row, clamped at zero, times the next weight, entry by entry. -/
theorem layer1_eq (x0 : (⟨S50000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) :
    val_main_v45 (F := Ideal) x0 x1 x2 x3 x4 = layer64 (val_main_v40 (F := Ideal) x0 x1 x2) (biasRow x3) x4 := by
  funext i
  rw [val_main_v45_apply]
  unfold layer64
  refine Finset.sum_congr rfl fun k _ => ?_
  have hl : lidx_main_v45 i k = lrow64 i k := funext fun a => by
    match a with
    | ⟨0, _⟩ => rfl
    | ⟨1, _⟩ => rfl
  have hr : ridx_main_v45 i k = rcol64 i k := funext fun a => by
    match a with
    | ⟨0, _⟩ => rfl
    | ⟨1, _⟩ => rfl
  have hb : idx_main_v41 (idx_main_v42 (lrow64 i k)) = col64 k := funext fun a => by
    match a with
    | ⟨0, _⟩ => rfl
  rw [hl, hr, val_main_v44_apply, val_main_v43_apply, val_main_call0_v0_apply, val_main_call0_cst_apply, val_main_v42_apply, val_main_v41_apply, hb, biasRow_apply]

/-- The second hidden layer: bias added to every row, clamped at zero, times the next weight, entry by entry. -/
theorem layer2_eq (x0 : (⟨S50000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) :
    val_main_v62 (F := Ideal) x0 x1 x2 x3 x4 x5 x6 = layer64 (val_main_v57 (F := Ideal) x0 x1 x2 x3 x4) (biasRow x5) x6 := by
  funext i
  rw [val_main_v62_apply]
  unfold layer64
  refine Finset.sum_congr rfl fun k _ => ?_
  have hl : lidx_main_v62 i k = lrow64 i k := funext fun a => by
    match a with
    | ⟨0, _⟩ => rfl
    | ⟨1, _⟩ => rfl
  have hr : ridx_main_v62 i k = rcol64 i k := funext fun a => by
    match a with
    | ⟨0, _⟩ => rfl
    | ⟨1, _⟩ => rfl
  have hb : idx_main_v58 (idx_main_v59 (lrow64 i k)) = col64 k := funext fun a => by
    match a with
    | ⟨0, _⟩ => rfl
  rw [hl, hr, val_main_v61_apply, val_main_v60_apply, val_main_call1_v0_apply, val_main_call1_cst_apply, val_main_v59_apply, val_main_v58_apply, hb, biasRow_apply]

/-- The third hidden layer: bias added to every row, clamped at zero, times the next weight, entry by entry. -/
theorem layer3_eq (x0 : (⟨S50000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) :
    val_main_v79 (F := Ideal) x0 x1 x2 x3 x4 x5 x6 x7 x8 = layer64 (val_main_v74 (F := Ideal) x0 x1 x2 x3 x4 x5 x6) (biasRow x7) x8 := by
  funext i
  rw [val_main_v79_apply]
  unfold layer64
  refine Finset.sum_congr rfl fun k _ => ?_
  have hl : lidx_main_v79 i k = lrow64 i k := funext fun a => by
    match a with
    | ⟨0, _⟩ => rfl
    | ⟨1, _⟩ => rfl
  have hr : ridx_main_v79 i k = rcol64 i k := funext fun a => by
    match a with
    | ⟨0, _⟩ => rfl
    | ⟨1, _⟩ => rfl
  have hb : idx_main_v75 (idx_main_v76 (lrow64 i k)) = col64 k := funext fun a => by
    match a with
    | ⟨0, _⟩ => rfl
  rw [hl, hr, val_main_v78_apply, val_main_v77_apply, val_main_call2_v0_apply, val_main_call2_cst_apply, val_main_v76_apply, val_main_v75_apply, hb, biasRow_apply]

/-- The last line of the reference adds the bias to every row of the fourth aggregation. -/
theorem out_eq (x0 : (⟨S50000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v94 (F := Ideal) x0 x1 x2 x3 x4 x5 x6 x7 x8 x9 = biasAdd (val_main_v91 (F := Ideal) x0 x1 x2 x3 x4 x5 x6 x7 x8) (biasRow x9) := by
  funext i
  rw [val_main_v94_apply, val_main_v93_apply, val_main_v92_apply]
  unfold biasAdd
  have hb : idx_main_v92 (idx_main_v93 i) = col64 ⟨(i 1).val, (i 1).isLt⟩ := funext fun a => by
    match a with
    | ⟨0, _⟩ => rfl
  rw [hb, biasRow_apply]

/-- The reference's result is the four-layer graph convolution of its ten arguments. -/
theorem reference_eq (x0 : (⟨S50000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v94 (F := Ideal) x0 x1 x2 x3 x4 x5 x6 x7 x8 x9 = gcnForward x0 x1 x2 x3 x4 x5 x6 x7 x8 x9 := by
  rw [out_eq, agg4_eq, layer3_eq, agg3_eq, layer2_eq, agg2_eq, layer1_eq, agg1_eq, prod_eq]
  rfl

end Cert.ReferenceIdeal.RefVal

end
-- ==== Proof.lean ====
/-
  The kernel program and its reference compute the same four-layer graph convolution.

  Both programs read the source and destination node lists off the edge array (each row followed by the self-loops),
  the degree of every node and the normalisation `deg^(-1/2)[src] · deg^(-1/2)[dst]` of every edge, and then, four
  times, project the activations by a weight matrix, gather the projected rows by source, scale them by the
  normalisation, add them into their destination rows, and add a bias; the first three layers are followed by a clamp
  at zero. The kernel program computes each projection in a region that walks the 50000 rows in ten blocks of 5000,
  and from the second layer on the region also applies the previous layer's bias and clamp before multiplying; the
  reference computes the projection as one matrix product on the host. On the extended reals rounding the operands to
  bf16 is the identity and a matrix product is the plain sum over the contracted axis, whatever the tiling; the
  gather, scale and scatter-add are the same host operations in both programs. So both results are one function of the
  ten arguments (`gcnForward`): the kernel's by reading each region's output array block by block and each host stretch
  through the shared aggregation, the reference's by reading its operations one at a time. No law used needs
  finiteness, so the precondition is never opened.
-/
import proofs.«113716_j32942399160406_1_alg».proof.Defs
import proofs.«113716_j32942399160406_1_alg».proof.Proof.Gen.Kernel
import proofs.«113716_j32942399160406_1_alg».proof.Proof.Gen.Kernel.Frame
import proofs.«113716_j32942399160406_1_alg».proof.Proof.Gen.KernelIdeal
import proofs.«113716_j32942399160406_1_alg».proof.Proof.Gen.KernelIdeal.Frame
import proofs.«113716_j32942399160406_1_alg».proof.Proof.Gen.ReferenceIdeal
import proofs.«113716_j32942399160406_1_alg».proof.Proof.Gen.Pre_finite_inputs
import proofs.«113716_j32942399160406_1_alg».proof.Proof.Gen.ReferenceIdeal.Run
import proofs.«113716_j32942399160406_1_alg».proof.Proof.Gen.ReferenceIdeal.Read
import proofs.«113716_j32942399160406_1_alg».proof.Proof.RunValue
import proofs.«113716_j32942399160406_1_alg».proof.Proof.HostChain
import proofs.«113716_j32942399160406_1_alg».proof.Proof.RefForward
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the four-layer function of the arguments in
    their result buffers, and their arguments unchanged. -/
theorem algebraic : Cert.algebraic_KernelIdeal_ReferenceIdeal := by
  intro m ρ m' ρ' _ hagree
  refine ⟨fun c => Cert.KernelIdeal.RegVal.gcnForward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.RegVal.kernel_value m ρ c), (h c).2⟩)
      (Cert.KernelIdeal.RegVal.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v94_eq, h0, h1, h2, h3, h4, h5, h6, h7, h8, h9]
    exact Cert.ReferenceIdeal.RefVal.reference_eq _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
